-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128x128 : Shape := ⟨4, ![4, 512, 128, 128]⟩
abbrev S_ : Shape := ⟨0, ![]⟩

class Facts : Prop where
  bcast_S_S4x512x128x128 : S_.BroadcastsInDim S4x512x128x128 (![] : Fin 0 → Fin S4x512x128x128.rank)
  reducesTo_S4x512x128x128_S_d0_1_2_3 : S4x512x128x128.ReducesTo [0, 1, 2, 3] S_
  h_S_ : 0 < S_.numel

variable [Facts]

def fn {F : FTy → Type} [FloatOps F] (main_arg0 : FVec F S4x512x128x128 .f32) (main_arg1 : FVec F S4x512x128x128 .f32) (main_arg2 : FVec F S4x512x128x128 .f32) : IVec S_ 1 :=
  let main_v0 : FVec F S4x512x128x128 .f32 := Host.absf main_arg0
  let main_cst : FVec F S_ .f32 := constant S_ .f32 0x7F800000#32
  let main_v1 : FVec F S4x512x128x128 .f32 := broadcastInDim S4x512x128x128 ![] bcast_S_S4x512x128x128 main_cst
  let main_v2 : IVec S4x512x128x128 1 := cmpf .olt main_v0 main_v1
  let main_c : IVec S_ 1 := constantI S_ 1 1#1
  let main_v3 : IVec S_ 1 := (fun x v => Host.reduce IntOp.andi x v reducesTo_S4x512x128x128_S_d0_1_2_3 h_S_) main_v2 main_c
  let main_v4 : FVec F S4x512x128x128 .f32 := Host.absf main_arg1
  let main_cst_0 : FVec F S_ .f32 := constant S_ .f32 0x7F800000#32
  let main_v5 : FVec F S4x512x128x128 .f32 := broadcastInDim S4x512x128x128 ![] bcast_S_S4x512x128x128 main_cst_0
  let main_v6 : IVec S4x512x128x128 1 := cmpf .olt main_v4 main_v5
  let main_c_1 : IVec S_ 1 := constantI S_ 1 1#1
  let main_v7 : IVec S_ 1 := (fun x v => Host.reduce IntOp.andi x v reducesTo_S4x512x128x128_S_d0_1_2_3 h_S_) main_v6 main_c_1
  let main_v8 : IVec S_ 1 := andi main_v3 main_v7
  let main_v9 : FVec F S4x512x128x128 .f32 := Host.absf main_arg2
  let main_cst_2 : FVec F S_ .f32 := constant S_ .f32 0x7F800000#32
  let main_v10 : FVec F S4x512x128x128 .f32 := broadcastInDim S4x512x128x128 ![] bcast_S_S4x512x128x128 main_cst_2
  let main_v11 : IVec S4x512x128x128 1 := cmpf .olt main_v9 main_v10
  let main_c_3 : IVec S_ 1 := constantI S_ 1 1#1
  let main_v12 : IVec S_ 1 := (fun x v => Host.reduce IntOp.andi x v reducesTo_S4x512x128x128_S_d0_1_2_3 h_S_) main_v11 main_c_3
  let main_v13 : IVec S_ 1 := andi main_v8 main_v12
  main_v13
-- ==== Kernel.lean ====
abbrev S4x512x128x128 : Shape := ⟨4, ![4, 512, 128, 128]⟩
abbrev S4x512x16384 : Shape := ⟨3, ![4, 512, 16384]⟩
abbrev S4x512x512 : Shape := ⟨3, ![4, 512, 512]⟩
abbrev S1x512x2048 : Shape := ⟨3, ![1, 512, 2048]⟩
abbrev S1x512x512 : Shape := ⟨3, ![1, 512, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x512x128x128, .f32⟩
  | .hbm, ⟨1, _⟩ => ⟨S4x512x128x128, .f32⟩
  | .hbm, ⟨2, _⟩ => ⟨S4x512x128x128, .f32⟩
  | .hbm, ⟨3, _⟩ => ⟨S4x512x16384, .f32⟩
  | .hbm, ⟨4, _⟩ => ⟨S4x512x16384, .f32⟩
  | .hbm, ⟨5, _⟩ => ⟨S4x512x16384, .f32⟩
  | .hbm, ⟨6, _⟩ => ⟨S4x512x512, .bf16⟩
  | .hbm, ⟨7, _⟩ => ⟨S4x512x16384, .f32⟩
  | .hbm, ⟨8, _⟩ => ⟨S4x512x128x128, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | .local _ .vmem, ⟨7, _⟩ => ⟨S1x512x512, .bf16⟩
  | .local _ .vmem, ⟨8, _⟩ => ⟨S1x512x512, .bf16⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x512x2048, .f32⟩
  | _, _ => ⟨S4x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x512x128x128_S4x512x16384 : S4x512x128x128.ShapeCasts S4x512x16384
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  shapeCasts_S512x2048_S1x512x2048 : S512x2048.ShapeCasts S1x512x2048
  shapeCasts_S4x512x16384_S4x512x128x128 : S4x512x16384.ShapeCasts S4x512x128x128
  dot_S512x2048_S512x2048_S512x512_1_1_0_0_n_n_wf : DotDims.WF S512x2048 S512x2048 S512x512 [1] [1] [0] [0] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x512x16384.size a
  hwx0_0 : ∀ i : grid0.Coords, EltTy.bits .f32 = 32 ∨ (Rect.block (s := S4x512x16384) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x512x16384.size a
  hwx0_1 : ∀ i : grid0.Coords, EltTy.bits .f32 = 32 ∨ (Rect.block (s := S4x512x16384) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x512x512.size a
  hwx0_2 : ∀ i : grid0.Coords, EltTy.bits .bf16 = 32 ∨ (Rect.block (s := S4x512x512) S1x512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x512x512.size a
  hwx1_0 : ∀ i : grid1.Coords, EltTy.bits .bf16 = 32 ∨ (Rect.block (s := S4x512x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S4x512x16384.size a
  hwx1_1 : ∀ i : grid1.Coords, EltTy.bits .f32 = 32 ∨ (Rect.block (s := S4x512x16384) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S4x512x16384.size a
  hwx1_2 : ∀ i : grid1.Coords, EltTy.bits .f32 = 32 ∨ (Rect.block (s := S4x512x16384) S1x512x2048.size (cc1_transform_2 i) (hinb1_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x512x128x128 : Shape := ⟨4, ![4, 512, 128, 128]⟩
abbrev S4x512x16384 : Shape := ⟨3, ![4, 512, 16384]⟩
abbrev S4x512x512 : Shape := ⟨3, ![4, 512, 512]⟩
abbrev S_ : Shape := ⟨0, ![]⟩
abbrev S4x512 : Shape := ⟨2, ![4, 512]⟩
abbrev S4x512x1 : Shape := ⟨3, ![4, 512, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x512x128x128, .f32⟩
  | .hbm, ⟨1, _⟩ => ⟨S4x512x128x128, .f32⟩
  | .hbm, ⟨2, _⟩ => ⟨S4x512x128x128, .f32⟩
  | .hbm, ⟨3, _⟩ => ⟨S4x512x16384, .f32⟩
  | .hbm, ⟨4, _⟩ => ⟨S4x512x16384, .f32⟩
  | .hbm, ⟨5, _⟩ => ⟨S4x512x16384, .f32⟩
  | .hbm, ⟨6, _⟩ => ⟨S4x512x512, .f32⟩
  | .hbm, ⟨7, _⟩ => ⟨S_, .f32⟩
  | .hbm, ⟨8, _⟩ => ⟨S4x512, .f32⟩
  | .hbm, ⟨9, _⟩ => ⟨S4x512x1, .f32⟩
  | .hbm, ⟨10, _⟩ => ⟨S4x512x512, .f32⟩
  | .hbm, ⟨11, _⟩ => ⟨S4x512x512, .f32⟩
  | .hbm, ⟨12, _⟩ => ⟨S_, .f32⟩
  | .hbm, ⟨13, _⟩ => ⟨S4x512, .f32⟩
  | .hbm, ⟨14, _⟩ => ⟨S_, .f32⟩
  | .hbm, ⟨15, _⟩ => ⟨S4x512, .f32⟩
  | .hbm, ⟨16, _⟩ => ⟨S4x512, .f32⟩
  | .hbm, ⟨17, _⟩ => ⟨S4x512x1, .f32⟩
  | .hbm, ⟨18, _⟩ => ⟨S4x512x512, .f32⟩
  | .hbm, ⟨19, _⟩ => ⟨S4x512x512, .f32⟩
  | .hbm, ⟨20, _⟩ => ⟨S4x512x512, .f32⟩
  | .hbm, ⟨21, _⟩ => ⟨S_, .f32⟩
  | .hbm, ⟨22, _⟩ => ⟨S4x512, .f32⟩
  | .hbm, ⟨23, _⟩ => ⟨S4x512x1, .f32⟩
  | .hbm, ⟨24, _⟩ => ⟨S4x512x512, .f32⟩
  | .hbm, ⟨25, _⟩ => ⟨S4x512x512, .f32⟩
  | .hbm, ⟨26, _⟩ => ⟨S4x512x16384, .f32⟩
  | .hbm, ⟨27, _⟩ => ⟨S4x512x128x128, .f32⟩
  | _, _ => ⟨S4x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S4x512x128x128_S4x512x16384 : S4x512x128x128.ShapeCasts S4x512x16384
  reducesTo_S4x512x512_S4x512_d2 : S4x512x512.ReducesTo [2] S4x512
  h_S_ : 0 < S_.numel
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  bcast_S_S4x512 : S_.BroadcastsInDim S4x512 (![] : Fin 0 → Fin S4x512.rank)
  shapeCasts_S4x512x16384_S4x512x128x128 : S4x512x16384.ShapeCasts S4x512x128x128
  dot_S4x512x16384_S4x512x16384_S4x512x512_2_2_1_1_0_0_wf : DotDims.WF S4x512x16384 S4x512x16384 S4x512x512 [2] [2] [1] [1] [0] [0]
  dot_S4x512x512_S4x512x16384_S4x512x16384_2_1_1_2_0_0_wf : DotDims.WF S4x512x512 S4x512x16384 S4x512x16384 [2] [1] [1] [2] [0] [0]

variable [Facts₀]

def dot_S4x512x16384_S4x512x16384_S4x512x512_2_2_1_1_0_0 : DotDims S4x512x16384 S4x512x16384 S4x512x512 where
  lhsContracting := [2]
  rhsContracting := [2]
  lhsNonContracting := [1]
  rhsNonContracting := [1]
  lhsBatch := [0]
  rhsBatch := [0]
  wf := dot_S4x512x16384_S4x512x16384_S4x512x512_2_2_1_1_0_0_wf
def dot_S4x512x512_S4x512x16384_S4x512x16384_2_1_1_2_0_0 : DotDims S4x512x512 S4x512x16384 S4x512x16384 where
  lhsContracting := [2]
  rhsContracting := [1]
  lhsNonContracting := [1]
  rhsNonContracting := [2]
  lhsBatch := [0]
  rhsBatch := [0]
  wf := dot_S4x512x512_S4x512x16384_S4x512x16384_2_1_1_2_0_0_wf

class Facts : Prop extends Facts₀ where

variable [Facts]
-- ==== Proof.KRegion0Base.lean ====
/-
  Region 0 (the energy / softmax call) at the contents `V` the region is entered from: what its run is stated over.
  The grid is 4 batches by 8 tiles of the contracted axis; point `t` is tile `t % 8` of batch `t / 8`. The body zeroes
  the accumulator at tile 0, adds the tile's partial energies at every tile, and at tile 7 stores the row softmax into
  the output block, which is idle (neither stored nor written back) at the other tiles.
-/
import proofs.«172253_j53326313947743_2_alg».proof.Proof.Gen.Kernel.Launch
import proofs.«172253_j53326313947743_2_alg».proof.Proof.Gen.Kernel.Skeleton
import proofs.«172253_j53326313947743_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, for any proof data over `V`'s array whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the grid -/

/-- "This is the first tile": the body's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile": the body's second conditional. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the output block is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x512x512 .bf16 := (Memref.whole cc0_stg2_0 : Memref sig .tc .vmem S1x512x512 .bf16).view
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S512x512 .f32 := Memref.whole cc0_scratch0
abbrev VS0_0 : View sig .tc .vmem S512x512 .f32 := scM0_0.view

/-- The scoped buffers the region neither stages nor uses (the other call's staging buffers), each whole at some contents. -/
abbrev Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant is before its first point: the accumulator at anything, the other scoped buffers at
    anything, the generator register at some state. -/
theorem PhiA0_eq (c : Dev nD) :
    (Pipeline.ΦA spec0 c : sProp 𝕄)
      = iprop(iprop((∃ d, owns (c : Thread nD τ) scM0_0 fullShare d) ∗ Others0 c) ∗ (∃ r, prngReg c r)) := by
  unfold Pipeline.ΦA; rw [scopedRest0_eq]; simp only [scM0_0, owns_whole]; try rfl

end Cert.Kernel.Hand

end
-- ==== Proof.KRegion0RunA.lean ====
/-
  Region 0's body at a FIRST tile (the first conditional taken, the second not): the accumulator, whatever it held, is
  zeroed and then receives the tile's partial energies; the output block is handed back untouched.
-/
import proofs.«172253_j53326313947743_2_alg».proof.Proof.KRegion0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) at a first tile — none in the output block, the accumulator's as the
    run finds them — with the body's triple on whole memrefs: the inputs at their blocks, the idle output block at
    contents handed back untouched, the accumulator at anything. -/
noncomputable def kernelRun0_A (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i)
    (x0 : Vec F S1x512x2048 .f32) (x1 : Vec F S1x512x2048 .f32) :
    Σ' (L2 : List (View.Piece (Elt F) S1x512x512 .bf16)), { LS0 : List (View.Piece (Elt F) S512x512 .f32) //
      ∀ (xi2 : Vec F S1x512x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__energy_softmax_kernel i arg2 harg2 arg3 harg3 arg4 harg4 arg5 harg5) K } := by
  refine ⟨[], ?_, fun xi2 E K => ?run⟩
  case run =>
    simp only [cc0__energy_softmax_kernel_eq_skeleton]; unfold cc0__energy_softmax_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRegion0RunB.lean ====
/-
  Region 0's body at a MIDDLE tile (neither conditional taken): the accumulator, at what the tile before left, receives
  the tile's partial energies; the output block is handed back untouched.
-/
import proofs.«172253_j53326313947743_2_alg».proof.Proof.KRegion0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave at a middle tile, with the body's triple: the accumulator enters at `xs0`. -/
noncomputable def kernelRun0_B (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i)
    (x0 : Vec F S1x512x2048 .f32) (x1 : Vec F S1x512x2048 .f32) (xs0 : Vec F S512x512 .f32) :
    Σ' (L2 : List (View.Piece (Elt F) S1x512x512 .bf16)), { LS0 : List (View.Piece (Elt F) S512x512 .f32) //
      ∀ (xi2 : Vec F S1x512x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__energy_softmax_kernel i arg2 harg2 arg3 harg3 arg4 harg4 arg5 harg5) K } := by
  refine ⟨[], ?_, fun xi2 E K => ?run⟩
  case run =>
    simp only [cc0__energy_softmax_kernel_eq_skeleton]; unfold cc0__energy_softmax_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRegion0RunC.lean ====
/-
  Region 0's body at a LAST tile (the second conditional taken): the accumulator, at what the tile before left, receives
  the tile's partial energies, and the row softmax of the completed energies is stored over the whole output block.
-/
import proofs.«172253_j53326313947743_2_alg».proof.Proof.KRegion0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave at a last tile, with the body's triple: the accumulator enters at `xs0`, the
    output block at anything. -/
noncomputable def kernelRun0_C (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i)
    (x0 : Vec F S1x512x2048 .f32) (x1 : Vec F S1x512x2048 .f32) (xs0 : Vec F S512x512 .f32) :
    Σ' (L2 : List (View.Piece (Elt F) S1x512x512 .bf16)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__energy_softmax_kernel i arg2 harg2 arg3 harg3 arg4 harg4 arg5 harg5) K } := by
  refine ⟨?_, ?_, fun E K => ?run⟩
  case run =>
    simp only [cc0__energy_softmax_kernel_eq_skeleton]; unfold cc0__energy_softmax_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KRegion0.lean ====
/-
  Region 0 (the energy / softmax call) at the contents `V` it is entered from: what the output block and the accumulator
  hold after each grid point, the invariant that carries the accumulator from point to point, the proof data, and the body's
  obligation at every point.
-/
import proofs.«172253_j53326313947743_2_alg».proof.Proof.KRegion0RunA
import proofs.«172253_j53326313947743_2_alg».proof.Proof.KRegion0RunB
import proofs.«172253_j53326313947743_2_alg».proof.Proof.KRegion0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, read back from its pieces -/

/-- A first tile stores nothing into the output block: a placeholder nothing consults (the block is idle there). -/
def out0_A_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) : Vec F S1x512x512 .bf16 :=
  VO0_2.read (Elt F) (VO0_2.writes (Elt F) VO0_2.junk (kernelRun0_A c i arg2 harg2 arg3 harg3 arg4 harg4 arg5 harg5 hc0 hc1 x0 x1).1)
/-- Its pieces for the accumulator cover it. -/
theorem scover0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) (y : S512x512.Idx) : ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x512.size (by sl_kernel_rfl) y
/-- What a first tile leaves in the accumulator. -/
def sout0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) : Vec F S512x512 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) : Vec F S1x512x512 .bf16 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) (y : S512x512.Idx) : ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x512.size (by sl_kernel_rfl) y
/-- What a middle tile leaves in the accumulator, from what the tile before left. -/
def sout0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) : Vec F S512x512 .f32 :=
  VS0_0.read (Elt F) (VS0_0.writes (Elt F) VS0_0.junk (kernelRun0_B c i arg2 harg2 arg3 harg3 arg4 harg4 arg5 harg5 hc0 hc1 x0 x1 xs0).2.1)

/-- A last tile's one store covers the output block. -/
theorem cover0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) (y : S1x512x512.Idx) : ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x512x512.size (by sl_kernel_rfl) y
/-- What a last tile leaves in the output block. -/
def out0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) : Vec F S1x512x512 .bf16 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) (y : S512x512.Idx) : ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x512.size (by sl_kernel_rfl) y
def sout0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) : Vec F S512x512 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## The accumulation, point by point -/

/-- What the output block and the accumulator hold after the body at position `n`: the case the closed forms select
    there, run on the point's input blocks, the accumulator entering at what position `n - 1` left. -/
def outsAt0 (c : Dev nD) : (n : ℕ) → n < cfg0.N → Vec F S1x512x512 .bf16 × Vec F S512x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator at anything; afterwards at what position `n - 1` left in
    it. The other scoped buffers and the generator register ride along untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Others0 c) ∗ (∃ r, prngReg c r)) := by
  cases n with
  | zero => exact absurd rfl hz
  | succ n => rfl

/-! ## The proof data -/

/-- Region 0's proof data on core `c`: the arrays as the region finds them; after the body at point `t` each input's buffer
    at its block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms say which case the point is in; the
    invariant hands the body the accumulator at what the point before left (at anything at the region's first point) and
    takes it back at this point's contents; the output block is handed back untouched where it is idle. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, HOth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_A_0 c _ _ _ _ _ _ _ _ _ _ _ _ _)
          iexact HOth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HOth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_A_0 c _ _ _ _ _ _ _ _ _ _ _ _ _)
          iexact HOth
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, HOth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_C_0 c _ _ _ _ _ _ _ _ _ _ _ _ _ _)
          iexact HOth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ hz]
      iintro ⟨⟨⟨HS0, HOth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_B_0 c _ _ _ _ _ _ _ _ _ _ _ _ _ _)
          iexact HOth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry form back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HOth⟩, Hg⟩
  isplitl [HS0 HOth]
  · isplitl [HS0]
    · iexists _; iexact HS0
    iexact HOth
  iexact Hg

theorem hout0 (c : Dev nD) : (dat0 V c).Φ (Fin.last cfg0.N) ⊢ Pipeline.ΦA spec0 c :=
  Phi_out0 V c _ (by rw [Fin.val_last]; have : cfg0.N = 32 := N_0; omega)

end

end Cert.Kernel.Hand

end
-- ==== Proof.KRegion1.lean ====
import proofs.«172253_j53326313947743_2_alg».proof.Proof.Gen.Kernel.Launch
import proofs.«172253_j53326313947743_2_alg».proof.Proof.Gen.Kernel.Skeleton
import proofs.«172253_j53326313947743_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call (the attention-weights-times-values product), at the buffer contents it is entered with

Every point of its grid loads the two input windows' staging buffers whole, loads the output window's staging
buffer (the value is not used), and stores one whole block: the product of the two loaded blocks. So the staging
buffer of the output window after the body is a function of the two input blocks alone, and the proof data of the
pipeline can be written down in closed form: each input buffer holds its block, the output buffer holds that
function of them. -/

-- membership in a rectangle of these extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole `[1, 512, 512]` staging buffer. -/
abbrev r1_0 : Rect S1x512x512 := Rect.unit (s := S1x512x512) ![0, 0, 0] S1x512x512.size inb_S1x512x512_S1x512x512_0_0_0
/-- The whole `[1, 512, 2048]` staging buffer. -/
abbrev r1_1 : Rect S1x512x2048 := Rect.unit (s := S1x512x2048) ![0, 0, 0] S1x512x2048.size inb_S1x512x2048_S1x512x2048_0_0_0

/-! ## What the body leaves in the output window's buffer -/

/-- Window 2's staging buffer after the body, from the two input windows' blocks: its one store, of the product of
    the two loaded blocks, as a one-piece list. -/
def out1_2 (x0 : Vec F S1x512x512 .bf16) (x1 : Vec F S1x512x2048 .f32) : Vec F S1x512x2048 .f32 :=
  View.canon [⟨r1_1, k1_pay1 (View.ld x0 r1_0) (View.ld x1 r1_1)⟩]

/-- Input window 0's current staging buffer holds its block at every point, fetched there or not (it is fetched only
    when the first grid coordinate moves: at the other points the block index has not moved, and the body leaves the
    block in place), for any proof data whose array is `V`'s (`hA`) and whose body leaves the block in place
    (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, under the same two hypotheses. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole buffer, so it covers it. -/
theorem cover1_2 (p0 : Vec F S1x512x2048 .f32) (y : S1x512x2048.Idx) :
    ∃ pc ∈ ([⟨r1_1, p0⟩] : List (View.Piece (Elt F) S1x512x2048 .f32)), y ∈ pc.1.set :=
  View.cover_of_tiled [⟨r1_1, p0⟩] S1x512x2048.size (by rfl) y

/-! ## The body's triple -/

set_option maxHeartbeats 1000000 in
/-- The kernel body on whole staging memrefs, the inputs' at contents `x0`, `x1` and the output's at anything, runs
    to the continuation holding the inputs' as they were and the output's at `out1_2 x0 x1`: two whole loads, a
    whole load of the output buffer whose value is dropped, and the one whole store of the product. -/
theorem sound_kernel1 (c : Dev nD) (E : Set ℕ) (i : grid1.Coords) (arg2 : Memref sig .tc .vmem S1x512x512 .bf16) (harg2 : arg2.IsWhole) (arg3 : Memref sig .tc .vmem S1x512x2048 .f32) (harg3 : arg3.IsWhole) (arg4 : Memref sig .tc .vmem S1x512x2048 .f32) (harg4 : arg4.IsWhole)
    (x0 : Vec F S1x512x512 .bf16) (x1 : Vec F S1x512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_matmul_kernel i arg2 harg2 arg3 harg3 arg4 harg4) K := by
  simp only [cc1__attn_matmul_kernel_eq_skeleton]; unfold cc1__attn_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the pipeline on core `c`: the arrays as the region finds them (`V`); after the body at point
    `t` each input's buffer at its block and the output's at `out1_2` of the two input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
import proofs.«172253_j53326313947743_2_alg».proof.Proof.KRegion0
import proofs.«172253_j53326313947743_2_alg».proof.Proof.KRegion1
import proofs.«172253_j53326313947743_2_alg».proof.Proof.Gen.Kernel.Regions
import Idealize.ShloMosaic.Lib.StableHlo.Run

/-! # The run of @main: a reshape of each argument, the two pallas_calls back to back, a reshape of the result

The buffer contents at each of the five boundaries are a fold from the launch memory: a host stretch rewrites the
buffers it writes, a pallas_call leaves its arrays at what its write-backs fold to and every other buffer alone. Each
pallas_call is entered from "every unscoped buffer whole at the boundary's contents, the generator register at some
state, nothing owed" and left at the same over the next boundary's contents; the first one's invariant starts and ends
at the scoped buffers it does not stage beside the generator register, whatever it carries in between. The run ends
with every unscoped buffer at the last boundary's contents, from which the three arguments are read back unchanged. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the three reshapes of the arguments (the first pallas_call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pallas_call's exit: its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the second pallas_call's entry contents (no host operation lies
    between the two calls). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pallas_call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape of the result (the return). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b

/-! ### The arguments end as launched: no host operation and no pallas_call writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ### The buffers the value is read through -/

/-- The returned buffer is the second pallas_call's output array, reshaped. -/
theorem W4_main_v5 (c : Dev nD) :
    W4 m ρ c (Proc.devRef .tc main_v5)
      = shapeCast S4x512x128x128 (W3 m ρ c (Proc.devRef .tc main_v4)) shapeCasts_S4x512x16384_S4x512x128x128 := by
  show StableHlo.after hostOps2 (W3 m ρ c) (Proc.devRef .tc main_v5) = _
  after_results; rfl
/-- The second pallas_call's output array at its exit: the write-backs folded. -/
theorem W3_main_v4 (c : Dev nD) : W3 m ρ c (Proc.devRef .tc main_v4) = (dat1 (V2 m ρ) c).arrAt 2 cfg1.N :=
  W3_arr m ρ c 2
/-- Its second input array is the third argument reshaped, untouched by the first call. -/
theorem W2_main_v2 (c : Dev nD) : W2 m ρ c (Proc.devRef .tc main_v2) = W1 m ρ c (Proc.devRef .tc main_v2) :=
  W2_of_ne m ρ c main_v2 (by decide)
/-- The first pallas_call's output array at its exit: the write-backs folded. -/
theorem W2_main_v3 (c : Dev nD) : W2 m ρ c (Proc.devRef .tc main_v3) = (dat0 (V1 m ρ) c).arrAt 2 cfg0.N :=
  W2_arr m ρ c 2
/-- The first pallas_call's input arrays and the second's second input: the arguments reshaped. -/
theorem W1_main_v0 (c : Dev nD) :
    W1 m ρ c (Proc.devRef .tc main_v0)
      = shapeCast S4x512x16384 (m ((c : Thread nD τ).loc main_arg0)) shapeCasts_S4x512x128x128_S4x512x16384 := by
  show StableHlo.after hostOps0 (W0 m ρ c) (Proc.devRef .tc main_v0) = _
  after_results; rfl
theorem W1_main_v1 (c : Dev nD) :
    W1 m ρ c (Proc.devRef .tc main_v1)
      = shapeCast S4x512x16384 (m ((c : Thread nD τ).loc main_arg1)) shapeCasts_S4x512x128x128_S4x512x16384 := by
  show StableHlo.after hostOps0 (W0 m ρ c) (Proc.devRef .tc main_v1) = _
  after_results; rfl
theorem W1_main_v2 (c : Dev nD) :
    W1 m ρ c (Proc.devRef .tc main_v2)
      = shapeCast S4x512x16384 (m ((c : Thread nD τ).loc main_arg2)) shapeCasts_S4x512x128x128_S4x512x16384 := by
  show StableHlo.after hostOps0 (W0 m ρ c) (Proc.devRef .tc main_v2) = _
  after_results; rfl

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state: entered from every unscoped buffer at `W1`, left at `W2`. Its arrays
    are split out of the unscoped buffers and put back at the exit contents; the generator register and the scoped
    buffers it does not stage go into its invariant's first instance and come back out of its last; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W2`, left at `W3` (what the
    last host stretch is entered from). Its invariant is the scoped buffers it does not stage beside the generator
    register, at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the arguments' reshapes from the launch contents, the two pallas_calls, the
    result's reshape from the second call's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every final memory holds the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.Region0Base.lean ====
/-
  Region 0 (the energy / softmax call) at the contents `V` the region is entered from: what its run is stated over.
  The grid is 4 batches by 8 tiles of the contracted axis; point `t` is tile `t % 8` of batch `t / 8`. The body zeroes
  the accumulator at tile 0, adds the tile's partial energies at every tile, and at tile 7 stores the row softmax into
  the output block, which is idle (neither stored nor written back) at the other tiles.
-/
import proofs.«172253_j53326313947743_2_alg».proof.Proof.Gen.KernelIdeal.Launch
import proofs.«172253_j53326313947743_2_alg».proof.Proof.Gen.KernelIdeal.Skeleton
import proofs.«172253_j53326313947743_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, for any proof data over `V`'s array whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the grid -/

/-- "This is the first tile": the body's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile": the body's second conditional. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the output block is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x512x512 .bf16 := (Memref.whole cc0_stg2_0 : Memref sig .tc .vmem S1x512x512 .bf16).view
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S512x512 .f32 := Memref.whole cc0_scratch0
abbrev VS0_0 : View sig .tc .vmem S512x512 .f32 := scM0_0.view

/-- The scoped buffers the region neither stages nor uses (the other call's staging buffers), each whole at some contents. -/
abbrev Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant is before its first point: the accumulator at anything, the other scoped buffers at
    anything, the generator register at some state. -/
theorem PhiA0_eq (c : Dev nD) :
    (Pipeline.ΦA spec0 c : sProp 𝕄)
      = iprop(iprop((∃ d, owns (c : Thread nD τ) scM0_0 fullShare d) ∗ Others0 c) ∗ (∃ r, prngReg c r)) := by
  unfold Pipeline.ΦA; rw [scopedRest0_eq]; simp only [scM0_0, owns_whole]; try rfl

end Cert.KernelIdeal.Hand

end
-- ==== Proof.Region0RunA.lean ====
/-
  Region 0's body at a FIRST tile (the first conditional taken, the second not): the accumulator, whatever it held, is
  zeroed and then receives the tile's partial energies; the output block is handed back untouched.
-/
import proofs.«172253_j53326313947743_2_alg».proof.Proof.Region0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) at a first tile — none in the output block, the accumulator's as the
    run finds them — with the body's triple on whole memrefs: the inputs at their blocks, the idle output block at
    contents handed back untouched, the accumulator at anything. -/
noncomputable def kernelRun0_A (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i)
    (x0 : Vec F S1x512x2048 .f32) (x1 : Vec F S1x512x2048 .f32) :
    Σ' (L2 : List (View.Piece (Elt F) S1x512x512 .bf16)), { LS0 : List (View.Piece (Elt F) S512x512 .f32) //
      ∀ (xi2 : Vec F S1x512x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__energy_softmax_kernel i arg2 harg2 arg3 harg3 arg4 harg4 arg5 harg5) K } := by
  refine ⟨[], ?_, fun xi2 E K => ?run⟩
  case run =>
    simp only [cc0__energy_softmax_kernel_eq_skeleton]; unfold cc0__energy_softmax_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region0RunB.lean ====
/-
  Region 0's body at a MIDDLE tile (neither conditional taken): the accumulator, at what the tile before left, receives
  the tile's partial energies; the output block is handed back untouched.
-/
import proofs.«172253_j53326313947743_2_alg».proof.Proof.Region0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave at a middle tile, with the body's triple: the accumulator enters at `xs0`. -/
noncomputable def kernelRun0_B (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i)
    (x0 : Vec F S1x512x2048 .f32) (x1 : Vec F S1x512x2048 .f32) (xs0 : Vec F S512x512 .f32) :
    Σ' (L2 : List (View.Piece (Elt F) S1x512x512 .bf16)), { LS0 : List (View.Piece (Elt F) S512x512 .f32) //
      ∀ (xi2 : Vec F S1x512x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__energy_softmax_kernel i arg2 harg2 arg3 harg3 arg4 harg4 arg5 harg5) K } := by
  refine ⟨[], ?_, fun xi2 E K => ?run⟩
  case run =>
    simp only [cc0__energy_softmax_kernel_eq_skeleton]; unfold cc0__energy_softmax_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region0RunC.lean ====
/-
  Region 0's body at a LAST tile (the second conditional taken): the accumulator, at what the tile before left, receives
  the tile's partial energies, and the row softmax of the completed energies is stored over the whole output block.
-/
import proofs.«172253_j53326313947743_2_alg».proof.Proof.Region0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave at a last tile, with the body's triple: the accumulator enters at `xs0`, the
    output block at anything. -/
noncomputable def kernelRun0_C (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i)
    (x0 : Vec F S1x512x2048 .f32) (x1 : Vec F S1x512x2048 .f32) (xs0 : Vec F S512x512 .f32) :
    Σ' (L2 : List (View.Piece (Elt F) S1x512x512 .bf16)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__energy_softmax_kernel i arg2 harg2 arg3 harg3 arg4 harg4 arg5 harg5) K } := by
  refine ⟨?_, ?_, fun E K => ?run⟩
  case run =>
    simp only [cc0__energy_softmax_kernel_eq_skeleton]; unfold cc0__energy_softmax_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Region0.lean ====
/-
  Region 0 (the energy / softmax call) at the contents `V` it is entered from: what the output block and the accumulator
  hold after each grid point, the invariant that carries the accumulator from point to point, the proof data, and the body's
  obligation at every point.
-/
import proofs.«172253_j53326313947743_2_alg».proof.Proof.Region0RunA
import proofs.«172253_j53326313947743_2_alg».proof.Proof.Region0RunB
import proofs.«172253_j53326313947743_2_alg».proof.Proof.Region0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, read back from its pieces -/

/-- A first tile stores nothing into the output block: a placeholder nothing consults (the block is idle there). -/
def out0_A_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) : Vec F S1x512x512 .bf16 :=
  VO0_2.read (Elt F) (VO0_2.writes (Elt F) VO0_2.junk (kernelRun0_A c i arg2 harg2 arg3 harg3 arg4 harg4 arg5 harg5 hc0 hc1 x0 x1).1)
/-- Its pieces for the accumulator cover it. -/
theorem scover0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) (y : S512x512.Idx) : ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x512.size (by sl_kernel_rfl) y
/-- What a first tile leaves in the accumulator. -/
def sout0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) : Vec F S512x512 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) : Vec F S1x512x512 .bf16 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) (y : S512x512.Idx) : ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x512.size (by sl_kernel_rfl) y
/-- What a middle tile leaves in the accumulator, from what the tile before left. -/
def sout0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) : Vec F S512x512 .f32 :=
  VS0_0.read (Elt F) (VS0_0.writes (Elt F) VS0_0.junk (kernelRun0_B c i arg2 harg2 arg3 harg3 arg4 harg4 arg5 harg5 hc0 hc1 x0 x1 xs0).2.1)

/-- A last tile's one store covers the output block. -/
theorem cover0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) (y : S1x512x512.Idx) : ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x512x512.size (by sl_kernel_rfl) y
/-- What a last tile leaves in the output block. -/
def out0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) : Vec F S1x512x512 .bf16 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) (y : S512x512.Idx) : ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x512.size (by sl_kernel_rfl) y
def sout0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) : Vec F S512x512 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## The accumulation, point by point -/

/-- What the output block and the accumulator hold after the body at position `n`: the case the closed forms select
    there, run on the point's input blocks, the accumulator entering at what position `n - 1` left. -/
def outsAt0 (c : Dev nD) : (n : ℕ) → n < cfg0.N → Vec F S1x512x512 .bf16 × Vec F S512x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator at anything; afterwards at what position `n - 1` left in
    it. The other scoped buffers and the generator register ride along untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Others0 c) ∗ (∃ r, prngReg c r)) := by
  cases n with
  | zero => exact absurd rfl hz
  | succ n => rfl

/-! ## The proof data -/

/-- Region 0's proof data on core `c`: the arrays as the region finds them; after the body at point `t` each input's buffer
    at its block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms say which case the point is in; the
    invariant hands the body the accumulator at what the point before left (at anything at the region's first point) and
    takes it back at this point's contents; the output block is handed back untouched where it is idle. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, HOth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_A_0 c _ _ _ _ _ _ _ _ _ _ _ _ _)
          iexact HOth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HOth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_A_0 c _ _ _ _ _ _ _ _ _ _ _ _ _)
          iexact HOth
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, HOth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_C_0 c _ _ _ _ _ _ _ _ _ _ _ _ _ _)
          iexact HOth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ hz]
      iintro ⟨⟨⟨HS0, HOth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HOth Hg]
      · isplitl [HS0 HOth]
        · isplitl [HS0]
          · unfold owns; iexists _; isplitr
            swap; · iexact HS0
            ipureintro; exact View.read_writes_of_cover _ _ _ _ _ (scover0_B_0 c _ _ _ _ _ _ _ _ _ _ _ _ _ _)
          iexact HOth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry form back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HOth⟩, Hg⟩
  isplitl [HS0 HOth]
  · isplitl [HS0]
    · iexists _; iexact HS0
    iexact HOth
  iexact Hg

theorem hout0 (c : Dev nD) : (dat0 V c).Φ (Fin.last cfg0.N) ⊢ Pipeline.ΦA spec0 c :=
  Phi_out0 V c _ (by rw [Fin.val_last]; have : cfg0.N = 32 := N_0; omega)

end

end Cert.KernelIdeal.Hand

end
-- ==== Proof.Region1.lean ====
import proofs.«172253_j53326313947743_2_alg».proof.Proof.Gen.KernelIdeal.Launch
import proofs.«172253_j53326313947743_2_alg».proof.Proof.Gen.KernelIdeal.Skeleton
import proofs.«172253_j53326313947743_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call (the attention-weights-times-values product), at the buffer contents it is entered with

Every point of its grid loads the two input windows' staging buffers whole, loads the output window's staging
buffer (the value is not used), and stores one whole block: the product of the two loaded blocks. So the staging
buffer of the output window after the body is a function of the two input blocks alone, and the proof data of the
pipeline can be written down in closed form: each input buffer holds its block, the output buffer holds that
function of them. -/

-- membership in a rectangle of these extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole `[1, 512, 512]` staging buffer. -/
abbrev r1_0 : Rect S1x512x512 := Rect.unit (s := S1x512x512) ![0, 0, 0] S1x512x512.size inb_S1x512x512_S1x512x512_0_0_0
/-- The whole `[1, 512, 2048]` staging buffer. -/
abbrev r1_1 : Rect S1x512x2048 := Rect.unit (s := S1x512x2048) ![0, 0, 0] S1x512x2048.size inb_S1x512x2048_S1x512x2048_0_0_0

/-! ## What the body leaves in the output window's buffer -/

/-- Window 2's staging buffer after the body, from the two input windows' blocks: its one store, of the product of
    the two loaded blocks, as a one-piece list. -/
def out1_2 (x0 : Vec F S1x512x512 .bf16) (x1 : Vec F S1x512x2048 .f32) : Vec F S1x512x2048 .f32 :=
  View.canon [⟨r1_1, k1_pay1 (View.ld x0 r1_0) (View.ld x1 r1_1)⟩]

/-- Input window 0's current staging buffer holds its block at every point, fetched there or not (it is fetched only
    when the first grid coordinate moves: at the other points the block index has not moved, and the body leaves the
    block in place), for any proof data whose array is `V`'s (`hA`) and whose body leaves the block in place
    (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, under the same two hypotheses. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole buffer, so it covers it. -/
theorem cover1_2 (p0 : Vec F S1x512x2048 .f32) (y : S1x512x2048.Idx) :
    ∃ pc ∈ ([⟨r1_1, p0⟩] : List (View.Piece (Elt F) S1x512x2048 .f32)), y ∈ pc.1.set :=
  View.cover_of_tiled [⟨r1_1, p0⟩] S1x512x2048.size (by rfl) y

/-! ## The body's triple -/

set_option maxHeartbeats 1000000 in
/-- The kernel body on whole staging memrefs, the inputs' at contents `x0`, `x1` and the output's at anything, runs
    to the continuation holding the inputs' as they were and the output's at `out1_2 x0 x1`: two whole loads, a
    whole load of the output buffer whose value is dropped, and the one whole store of the product. -/
theorem sound_kernel1 (c : Dev nD) (E : Set ℕ) (i : grid1.Coords) (arg2 : Memref sig .tc .vmem S1x512x512 .bf16) (harg2 : arg2.IsWhole) (arg3 : Memref sig .tc .vmem S1x512x2048 .f32) (harg3 : arg3.IsWhole) (arg4 : Memref sig .tc .vmem S1x512x2048 .f32) (harg4 : arg4.IsWhole)
    (x0 : Vec F S1x512x512 .bf16) (x1 : Vec F S1x512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_matmul_kernel i arg2 harg2 arg3 harg3 arg4 harg4) K := by
  simp only [cc1__attn_matmul_kernel_eq_skeleton]; unfold cc1__attn_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the pipeline on core `c`: the arrays as the region finds them (`V`); after the body at point
    `t` each input's buffer at its block and the output's at `out1_2` of the two input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«172253_j53326313947743_2_alg».proof.Proof.Region0
import proofs.«172253_j53326313947743_2_alg».proof.Proof.Region1
import proofs.«172253_j53326313947743_2_alg».proof.Proof.Gen.KernelIdeal.Regions
import Idealize.ShloMosaic.Lib.StableHlo.Run

/-! # The run of @main: a reshape of each argument, the two pallas_calls back to back, a reshape of the result

The buffer contents at each of the five boundaries are a fold from the launch memory: a host stretch rewrites the
buffers it writes, a pallas_call leaves its arrays at what its write-backs fold to and every other buffer alone. Each
pallas_call is entered from "every unscoped buffer whole at the boundary's contents, the generator register at some
state, nothing owed" and left at the same over the next boundary's contents; the first one's invariant starts and ends
at the scoped buffers it does not stage beside the generator register, whatever it carries in between. The run ends
with every unscoped buffer at the last boundary's contents, from which the three arguments are read back unchanged. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the three reshapes of the arguments (the first pallas_call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pallas_call's exit: its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the second pallas_call's entry contents (no host operation lies
    between the two calls). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pallas_call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape of the result (the return). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b

/-! ### The arguments end as launched: no host operation and no pallas_call writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ### The buffers the value is read through -/

/-- The returned buffer is the second pallas_call's output array, reshaped. -/
theorem W4_main_v5 (c : Dev nD) :
    W4 m ρ c (Proc.devRef .tc main_v5)
      = shapeCast S4x512x128x128 (W3 m ρ c (Proc.devRef .tc main_v4)) shapeCasts_S4x512x16384_S4x512x128x128 := by
  show StableHlo.after hostOps2 (W3 m ρ c) (Proc.devRef .tc main_v5) = _
  after_results; rfl
/-- The second pallas_call's output array at its exit: the write-backs folded. -/
theorem W3_main_v4 (c : Dev nD) : W3 m ρ c (Proc.devRef .tc main_v4) = (dat1 (V2 m ρ) c).arrAt 2 cfg1.N :=
  W3_arr m ρ c 2
/-- Its second input array is the third argument reshaped, untouched by the first call. -/
theorem W2_main_v2 (c : Dev nD) : W2 m ρ c (Proc.devRef .tc main_v2) = W1 m ρ c (Proc.devRef .tc main_v2) :=
  W2_of_ne m ρ c main_v2 (by decide)
/-- The first pallas_call's output array at its exit: the write-backs folded. -/
theorem W2_main_v3 (c : Dev nD) : W2 m ρ c (Proc.devRef .tc main_v3) = (dat0 (V1 m ρ) c).arrAt 2 cfg0.N :=
  W2_arr m ρ c 2
/-- The first pallas_call's input arrays and the second's second input: the arguments reshaped. -/
theorem W1_main_v0 (c : Dev nD) :
    W1 m ρ c (Proc.devRef .tc main_v0)
      = shapeCast S4x512x16384 (m ((c : Thread nD τ).loc main_arg0)) shapeCasts_S4x512x128x128_S4x512x16384 := by
  show StableHlo.after hostOps0 (W0 m ρ c) (Proc.devRef .tc main_v0) = _
  after_results; rfl
theorem W1_main_v1 (c : Dev nD) :
    W1 m ρ c (Proc.devRef .tc main_v1)
      = shapeCast S4x512x16384 (m ((c : Thread nD τ).loc main_arg1)) shapeCasts_S4x512x128x128_S4x512x16384 := by
  show StableHlo.after hostOps0 (W0 m ρ c) (Proc.devRef .tc main_v1) = _
  after_results; rfl
theorem W1_main_v2 (c : Dev nD) :
    W1 m ρ c (Proc.devRef .tc main_v2)
      = shapeCast S4x512x16384 (m ((c : Thread nD τ).loc main_arg2)) shapeCasts_S4x512x128x128_S4x512x16384 := by
  show StableHlo.after hostOps0 (W0 m ρ c) (Proc.devRef .tc main_v2) = _
  after_results; rfl

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state: entered from every unscoped buffer at `W1`, left at `W2`. Its arrays
    are split out of the unscoped buffers and put back at the exit contents; the generator register and the scoped
    buffers it does not stage go into its invariant's first instance and come back out of its last; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W2`, left at `W3` (what the
    last host stretch is entered from). Its invariant is the scoped buffers it does not stage beside the generator
    register, at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the arguments' reshapes from the launch contents, the two pallas_calls, the
    result's reshape from the second call's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every final memory holds the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Region0Pieces.lean ====
/-
  What each case of region 0's body leaves, as values: a first tile leaves the zero block plus the tile's partial energies
  in the accumulator; a later tile leaves what the accumulator held plus the tile's partial energies; a last tile also
  leaves, in the output block, the row softmax of the completed accumulator.
-/
import proofs.«172253_j53326313947743_2_alg».proof.Proof.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves in the accumulator what it held plus the tile's partial energies. -/
theorem sout_B (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : ¬cond0_1 i) (x0 : Vec F S1x512x2048 .f32) (x1 : Vec F S1x512x2048 .f32) (xs0 : Vec F S512x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S1x512x2048) hz3, View.ld_unit_zero (S := S512x512) hz2]

/-- A first tile leaves in the accumulator the zero block plus the tile's partial energies. -/
theorem sout_A (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : cond0_0 i) (hc1 : ¬cond0_1 i) (x0 : Vec F S1x512x2048 .f32) (x1 : Vec F S1x512x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x512) hz2, View.readCov_unit_zero (S := S512x512) _ hz2]
  simp only [View.readAt_eq_ld, harg2.read_unread, harg3.read_unread, View.ld_unit_zero (S := S1x512x2048) hz3]

/-- A last tile leaves in the accumulator what it held plus the tile's partial energies, -/
theorem sout_C (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x512x2048) hz3, View.ld_unit_zero (S := S512x512) hz2]

/-- and in the output block the row softmax of that completed accumulator. -/
theorem out_C (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x512 .bf16) (harg4 : arg4.IsWhole) (arg5 : Memref sig .tc .vmem S512x512 .f32) (harg5 : arg5.IsWhole) (hc0 : ¬cond0_0 i) (hc1 : cond0_1 i) (x0 : Vec F S1x512x2048 .f32) (x1 : Vec F S1x512x2048 .f32) (xs0 : Vec F S512x512 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S512x512) _ hz2]
  simp only [View.readAt_eq_ld, harg2.read_unread, harg3.read_unread, harg5.read_unread, View.ld_unit_zero (S := S1x512x2048) hz3, View.ld_unit_zero (S := S512x512) hz2]

end Cert.KernelIdeal.Hand

end
-- ==== Proof.Region0Pay.lean ====
import proofs.«172253_j53326313947743_2_alg».proof.Proof.Gen.KernelIdeal.Skeleton
import Idealize.ShloMosaic.Lib.Pipeline.Value
import Idealize.ShloMosaic.Lib.ValueIdx
import Idealize.ShloMosaic.PureOps.Ideal.Laws

/-! # The accumulator's update, read at an index

The body casts the two `[1, 512, 2048]` input blocks to matrices, multiplies the first by the transpose of the second
(both contracted along their last axis) into a zero accumulator, and adds the product to what the accumulator held. So
the stored block at `(i, j)` is the accumulator at `(i, j)` plus the sum over `kk` of the first block at `(0, i, kk)` times
the second at `(0, j, kk)`. -/

set_option maxRecDepth 16384

noncomputable section

open scoped BigOperators

namespace Cert.KernelIdeal.Hand.Value0

open Cert.KernelIdeal Cert.KernelIdeal.Gen
open Idealize.ShloMosaic Idealize.ShloMosaic.ValueIdx

/-- The product's dimension numbers: both operands' axis 1 is contracted; no batch axis. -/
abbrev Dqk := dot_S512x2048_S512x2048_S512x512_1_1_0_0_n_n

theorem qk_lhs_0 (j : S512x512.Idx) (q : Dqk.contr.Idx) : (Dqk.lhsIdx j q 0).val = (j 0).val := by
  unfold DotDims.lhsIdx
  rw [dif_neg (show ¬(0 : Fin S512x2048.rank) ∈ Dqk.lhsBatch by decide), dif_pos (show (0 : Fin S512x2048.rank) ∈ Dqk.lhsNonContracting by decide)]
  rfl
theorem qk_lhs_1 (j : S512x512.Idx) (q : Dqk.contr.Idx) : (Dqk.lhsIdx j q 1).val = (q ⟨0, by decide⟩).val :=
  Dqk.lhsIdx_val_of_single rfl j q
theorem qk_rhs_0 (j : S512x512.Idx) (q : Dqk.contr.Idx) : (Dqk.rhsIdx j q 0).val = (j 1).val := by
  unfold DotDims.rhsIdx
  rw [dif_neg (show ¬(0 : Fin S512x2048.rank) ∈ Dqk.rhsBatch by decide), dif_pos (show (0 : Fin S512x2048.rank) ∈ Dqk.rhsNonContracting by decide)]
  rfl
theorem qk_rhs_1 (j : S512x512.Idx) (q : Dqk.contr.Idx) : (Dqk.rhsIdx j q 1).val = (q ⟨0, by decide⟩).val :=
  Dqk.rhsIdx_val_of_single rfl j q

/-- The accumulator's update at `(i, j)`. -/
theorem acc_at (xq xk : Vec Ideal S1x512x2048 .f32) (acc : Vec Ideal S512x512 .f32) (i j : Fin 512) :
    k0_pay2 (F := Ideal) xq xk acc (ix2 i j) = acc (ix2 i j) + ∑ kk : Fin 2048, xq (ix3 0 i kk) * xk (ix3 0 j kk) := by
  unfold k0_pay2
  rw [shapeCast_self]
  refine (addf_apply _ _ _).trans ?_
  refine congrArg (acc (ix2 i j) + ·) ?_
  refine (Ideal.matmul_constant_zero_apply Dqk (some .fp32) _ _ _).trans ?_
  rw [← Equiv.sum_comp (contrEquiv1 Dqk 2048 rfl rfl).symm]
  refine Finset.sum_congr rfl fun k _ => ?_
  have hk := contrEquiv1_symm_val Dqk 2048 rfl rfl k
  have el : Dqk.lhsIdx (ix2 i j) ((contrEquiv1 Dqk 2048 rfl rfl).symm k) = ix2 i k := funext fun a => Fin.ext (by
    match a with
    | ⟨0, _⟩ => exact qk_lhs_0 _ _
    | ⟨1, _⟩ => exact (qk_lhs_1 _ _).trans hk)
  have er : Dqk.rhsIdx (ix2 i j) ((contrEquiv1 Dqk 2048 rfl rfl).symm k) = ix2 j k := funext fun a => Fin.ext (by
    match a with
    | ⟨0, _⟩ => exact qk_rhs_0 _ _
    | ⟨1, _⟩ => exact (qk_rhs_1 _ _).trans hk)
  rw [el, er]
  have eq' : shapeCast S512x2048 xq shapeCasts_S1x512x2048_S512x2048 (ix2 i k) = xq (ix3 0 i k) :=
    (shapeCast_dropUnit_apply ![512, 2048] xq shapeCasts_S1x512x2048_S512x2048 (ix2 i k)).trans
      (congrArg xq (funext fun d => by match d with | ⟨0, _⟩ => rfl | ⟨1, _⟩ => rfl | ⟨2, _⟩ => rfl))
  have ek' : shapeCast S512x2048 xk shapeCasts_S1x512x2048_S512x2048 (ix2 j k) = xk (ix3 0 j k) :=
    (shapeCast_dropUnit_apply ![512, 2048] xk shapeCasts_S1x512x2048_S512x2048 (ix2 j k)).trans
      (congrArg xk (funext fun d => by match d with | ⟨0, _⟩ => rfl | ⟨1, _⟩ => rfl | ⟨2, _⟩ => rfl))
  show shapeCast S512x2048 xq shapeCasts_S1x512x2048_S512x2048 (ix2 i k) * shapeCast S512x2048 xk shapeCasts_S1x512x2048_S512x2048 (ix2 j k) = _
  rw [eq', ek']

end Cert.KernelIdeal.Hand.Value0

end
-- ==== Proof.LibChunkSum.lean ====
/-
  A sum taken chunk by chunk. A running total that starts at zero and, at step `c`, adds the sum of the
  `b` consecutive terms `g (b * c), …, g (b * c + b - 1)`, holds after `n` steps the sum of the first
  `b * n` terms. Only commutativity and associativity of addition are used, so the statement holds in any
  additive commutative monoid — in particular on the extended reals, where no finiteness is needed.
-/
import Mathlib.Algebra.BigOperators.Fin

namespace ChunkSum

open Finset

variable {M : Type*} [AddCommMonoid M]

/-- The running total after `c` chunks of `b` terms each, from `init`. -/
def running (b : ℕ) (g : ℕ → M) (init : M) : ℕ → M
  | 0 => init
  | c + 1 => running b g init c + ∑ k : Fin b, g (b * c + k.val)

@[simp] theorem running_zero (b : ℕ) (g : ℕ → M) (init : M) : running b g init 0 = init := rfl

theorem running_succ (b : ℕ) (g : ℕ → M) (init : M) (c : ℕ) :
    running b g init (c + 1) = running b g init c + ∑ k : Fin b, g (b * c + k.val) := rfl

/-- After `n` chunks the running total is `init` plus the sum of the first `b * n` terms. -/
theorem running_eq_range (b : ℕ) (g : ℕ → M) (init : M) (n : ℕ) :
    running b g init n = init + ∑ i ∈ range (b * n), g i := by
  induction n with
  | zero => simp
  | succ c ih =>
    rw [running_succ, ih, Nat.mul_succ, sum_range_add, add_assoc]
    congr 2
    exact Fin.sum_univ_eq_sum_range (fun k => g (b * c + k)) b

/-- The same, with the total written over `Fin N` for `N = b * n`. -/
theorem running_eq_sum (b n N : ℕ) (hN : N = b * n) (g : ℕ → M) (init : M) :
    running b g init n = init + ∑ i : Fin N, g i.val := by
  subst hN
  rw [running_eq_range, Fin.sum_univ_eq_sum_range (fun i => g i) (b * n)]

end ChunkSum
-- ==== Proof.Spec.lean ====
/-
  The mathematics both programs compute, on the extended reals, index by index.

  Inputs q, k, v : [4, 512, 16384].  The energy of rows i and j of batch b is the inner product of q's row i and
  k's row j.  Each row of energies is turned into weights by a softmax of the REVERSED energies: with M the row's
  maximum (taken from -∞), the gaps L j = M - e j, their maximum M' (again from -∞, and once more against -∞),
  the weights exp (L j - M') and their sum, the row's softmax at j is the weight at j divided by the sum.  The
  output at (b, i, n) is the weighted sum over j of v's row j at n.
-/
import Idealize.ShloMosaic.PureOps.Ideal
import Idealize.ShloMosaic.Lib.ValueIdx

noncomputable section

open scoped BigOperators

namespace Cert.Spec

open Idealize.ShloMosaic Idealize.ShloMosaic.ValueIdx

/-- The f32 pattern of -∞ denotes the bottom extended real. -/
theorem ofBits_negInf_f32 : Ideal.ofBits .f32 0xFF800000#32 = ⊥ := by simp [Ideal.ofBits, Ideal.ieee]

/-- The energy at (b, i, j): the inner product of q's row (b, i) and k's row (b, j). -/
def energy (q k : (⟨3, ![4, 512, 16384]⟩ : Shape).Idx → EReal) (b : Fin 4) (i j : Fin 512) : EReal :=
  ∑ n : Fin 16384, q (ix3 b i n) * k (ix3 b j n)

/-- A row's maximum, folded from -∞ over the row's 512 positions. -/
def rowMax (e : Fin 512 → EReal) : EReal := (Finset.univ : Finset (Fin 512)).fold max ⊥ e

/-- The gap of position j below the row's maximum. -/
def gap (e : Fin 512 → EReal) (j : Fin 512) : EReal := rowMax e - e j

/-- The largest gap, taken against -∞ once more. -/
def shift (e : Fin 512 → EReal) : EReal := max ⊥ (rowMax (gap e))

/-- The unnormalized weight of position j. -/
def weight (e : Fin 512 → EReal) (j : Fin 512) : EReal := Ideal.exp (gap e j - shift e)

/-- The softmax of the reversed row e, read at position j. -/
def softmaxRow (e : Fin 512 → EReal) (j : Fin 512) : EReal :=
  Ideal.div (weight e j) (∑ j' : Fin 512, weight e j')

/-- The output: at (b, i, n), the sum over j of the softmax of row (b, i) of the energies at j times v at (b, j, n). -/
def out (q k v : (⟨3, ![4, 512, 16384]⟩ : Shape).Idx → EReal) : (⟨3, ![4, 512, 16384]⟩ : Shape).Idx → EReal :=
  fun x => ∑ j : Fin 512, softmaxRow (fun j' => energy q k (x 0) (x 1) j') j * v (ix3 (x 0) j (x 2))

theorem out_apply (q k v : (⟨3, ![4, 512, 16384]⟩ : Shape).Idx → EReal) (b : Fin 4) (i : Fin 512) (n : Fin 16384) :
    out q k v (ix3 b i n) = ∑ j : Fin 512, softmaxRow (fun j' => energy q k b i j') j * v (ix3 b j n) := rfl

end Cert.Spec

end
-- ==== Proof.PayloadValues.lean ====
/-
  The pure values the energies' kernel stores, read index by index on the extended reals: the block of zeros,
  one more tile of the inner products added to the accumulator, and the softmax of the accumulator's reversed rows.
-/
import proofs.«172253_j53326313947743_2_alg».proof.Proof.Gen.KernelIdeal.Skeleton
import proofs.«172253_j53326313947743_2_alg».proof.Proof.Spec
import Idealize.ShloMosaic.Lib.ValueLayout
import Idealize.ShloMosaic.PureOps.Ideal.Laws

noncomputable section

open scoped BigOperators

namespace Cert.KernelIdeal.PayloadValues

open Idealize.ShloMosaic Idealize.ShloMosaic.ValueIdx Cert.KernelIdeal Cert.KernelIdeal.Gen

/-! ## Columns: a vector kept as an [a, 1] column and spread over the rows' positions -/

section Column
variable {α : Type}

/-- A length-a vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and spread over the positions reads, at (p, c), the vector at p. -/
theorem column_apply {a b : ℕ} (w : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ w h1) h2 (ix2 p c) = w (ix1 p) :=
  (broadcastTo_a1_ab_apply _ h2 p c).trans (shapeCast_a_a1_apply w h1 p 0)

end Column

/-! ## A row's maximum and sum -/

/-- The index of position k of row i. -/
theorem lift_row (h : S512x512.Reduces [1] S512) (i : Fin 512) (k : Fin 512) :
    h.lift (ix1 i) k = ix2 i k :=
  funext fun a => Fin.ext (by match a with | ⟨0, _⟩ => rfl | ⟨1, _⟩ => rfl)

/-- The fold of the maximum from -∞ over the positions of a row is the row's maximum. -/
theorem reduceFold_max_row (x : FVec Ideal S512x512 .f32) (h : S512x512.Reduces [1] S512) (i : Fin 512) :
    reduceFold h (FloatOps.maximumf (F := Ideal) (φ := .f32)) (FloatOps.ofBits .f32 0xFF800000#32) x (ix1 i)
      = Spec.rowMax (fun j' => x (ix2 i j')) := by
  rw [reduceFold_eq_fold, h.fold_filter_drop_single]
  unfold Spec.rowMax
  show (Finset.univ : Finset (Fin 512)).fold max (Ideal.ofBits .f32 0xFF800000#32) (fun k => x (h.lift (ix1 i) k)) = _
  rw [Spec.ofBits_negInf_f32]
  exact congrArg (fun f : Fin 512 → EReal => (Finset.univ : Finset (Fin 512)).fold max ⊥ f)
    (funext fun k => congrArg x (lift_row h i k))

/-- The sum over the positions of a row. -/
theorem reduceAdd_row (x : FVec Ideal S512x512 .f32) (h : S512x512.Reduces [1] S512) (i : Fin 512) :
    Ideal.reduceAdd h x (ix1 i) = ∑ j' : Fin 512, x (ix2 i j') := by
  rw [Ideal.reduceAdd_single]
  exact Finset.sum_congr rfl fun k _ => congrArg x (lift_row h i k)

/-- The exponential of a vector at an index. -/
theorem exp_apply {s : Shape} {φ : FTy} (a : FVec Ideal s φ) (i : s.Idx) : exp a i = Ideal.exp (a i) := rfl

/-! ## The energies' matrix product at an index -/

/-- The dimension numbers of the energies' product: rows against rows. -/
abbrev rowD : DotDims S512x2048 S512x2048 S512x512 := dot_S512x2048_S512x2048_S512x512_1_1_0_0_n_n

theorem rowD_lhs0 (i : S512x512.Idx) (q : rowD.contr.Idx) : (rowD.lhsIdx i q 0).val = (i 0).val := by
  unfold DotDims.lhsIdx
  rw [dif_neg (show ¬(0 : Fin S512x2048.rank) ∈ rowD.lhsBatch by decide),
    dif_pos (show (0 : Fin S512x2048.rank) ∈ rowD.lhsNonContracting by decide)]
  rfl
theorem rowD_lhs1 (i : S512x512.Idx) (q : rowD.contr.Idx) : (rowD.lhsIdx i q 1).val = (q ⟨0, by decide⟩).val :=
  rowD.lhsIdx_val_of_single rfl i q
theorem rowD_rhs0 (i : S512x512.Idx) (q : rowD.contr.Idx) : (rowD.rhsIdx i q 0).val = (i 1).val := by
  unfold DotDims.rhsIdx
  rw [dif_neg (show ¬(0 : Fin S512x2048.rank) ∈ rowD.rhsBatch by decide),
    dif_pos (show (0 : Fin S512x2048.rank) ∈ rowD.rhsNonContracting by decide)]
  rfl
theorem rowD_rhs1 (i : S512x512.Idx) (q : rowD.contr.Idx) : (rowD.rhsIdx i q 1).val = (q ⟨0, by decide⟩).val :=
  rowD.rhsIdx_val_of_single rfl i q

/-- Rows against rows: the [512, 2048] x [512, 2048] product contracting the last axis of both, into zeros,
    read at (p, q), is the inner product of row p of the left and row q of the right. -/
theorem rowDot_apply (prec : Option ContractPrecision) (l r : FVec Ideal S512x2048 .f32) (p q : Fin 512) :
    matmul (F := Ideal) dot_S512x2048_S512x2048_S512x512_1_1_0_0_n_n prec l r (constant (F := Ideal) S512x512 .f32 0x00000000#32) (ix2 p q)
      = ∑ kk : Fin 2048, l (ix2 p kk) * r (ix2 q kk) := by
  simp only [matmul]
  rw [Ideal.matmul_constant_zero_apply, ← Equiv.sum_comp (contrEquiv1 rowD 2048 rfl rfl).symm]
  refine Finset.sum_congr rfl fun k _ => ?_
  have hk := contrEquiv1_symm_val rowD 2048 rfl rfl k
  have el : rowD.lhsIdx (ix2 p q) ((contrEquiv1 rowD 2048 rfl rfl).symm k) = ix2 p k := funext fun a => Fin.ext (by
    match a with
    | ⟨0, _⟩ => exact rowD_lhs0 _ _
    | ⟨1, _⟩ => exact (rowD_lhs1 _ _).trans hk)
  have er : rowD.rhsIdx (ix2 p q) ((contrEquiv1 rowD 2048 rfl rfl).symm k) = ix2 q k := funext fun a => Fin.ext (by
    match a with
    | ⟨0, _⟩ => exact rowD_rhs0 _ _
    | ⟨1, _⟩ => exact (rowD_rhs1 _ _).trans hk)
  rw [el, er]

/-! ## The payloads of the energies' kernel at an index -/

/-- The gaps of a row, as a function of the position. -/
theorem gap_eq (e : Fin 512 → EReal) : Spec.gap e = fun j => Spec.rowMax e - e j := rfl

/-- The block of zeros. -/
theorem zero_apply (i j : Fin 512) : k0_pay1 (F := Ideal) (ix2 i j) = 0 := by
  unfold k0_pay1
  simp only [shapeCast_self, broadcast_apply]
  exact Ideal.ofBits_zero_f32

/-- One more tile of the energies: the accumulator plus the inner product of the two rows over the tile. -/
theorem acc_apply (xq xk : Vec Ideal S1x512x2048 .f32) (acc : Vec Ideal S512x512 .f32) (i j : Fin 512) :
    k0_pay2 (F := Ideal) xq xk acc (ix2 i j)
      = acc (ix2 i j) + ∑ kk : Fin 2048, xq (ix3 (0 : Fin 1) i kk) * xk (ix3 (0 : Fin 1) j kk) := by
  unfold k0_pay2
  simp (config := { implicitDefEqProofs := false }) only [shapeCast_self, addf_apply, rowDot_apply, shapeCast_1ab_ab_apply]

/-- The softmax of the reversed rows of the accumulator. -/
theorem softmax_apply (acc : FVec Ideal S512x512 .f32) (i j : Fin 512) :
    k0_pay3 (F := Ideal) acc (ix3 (0 : Fin 1) i j) = Spec.softmaxRow (fun j' => acc (ix2 i j')) j := by
  unfold k0_pay3
  simp only [multiReduction, Ideal.reduceAdd_def]
  simp (config := { implicitDefEqProofs := false }) only [shapeCast_ab_1ab_apply, truncf_apply, divf_apply, column_apply,
    reduceAdd_row, exp_apply, subf_apply, reduceFold_max_row, maximumf_apply, broadcast_apply]
  simp (config := { implicitDefEqProofs := false }) only [Ideal.ofBits_def, Spec.ofBits_negInf_f32, Spec.softmaxRow,
    Spec.weight, Spec.shift, gap_eq]

end Cert.KernelIdeal.PayloadValues

end
-- ==== Proof.Region0Value.lean ====
/-
  What region 0 leaves in its output array. The accumulator after point `t` holds the running total of the batch's energies
  over the first `t % 8 + 1` tiles of the contracted axis (a first tile starts it from the zero block, every later tile adds
  its 2048 terms); at a batch's last tile the total is the whole energy `E[b, i, j] = Σ_x q[b, i, x] · k[b, j, x]` — eight
  chunks of 2048 terms regrouped, which needs only that addition is commutative and associative — and the body stores the
  row softmax of the reversed energies into the batch's output block, the one block the pipeline writes back for that batch.
-/
import proofs.«172253_j53326313947743_2_alg».proof.Proof.Region0Pieces
import proofs.«172253_j53326313947743_2_alg».proof.Proof.Region0Pay
import proofs.«172253_j53326313947743_2_alg».proof.Proof.LibChunkSum
import proofs.«172253_j53326313947743_2_alg».proof.Proof.Spec
import proofs.«172253_j53326313947743_2_alg».proof.Proof.PayloadValues
import Idealize.ShloMosaic.Lib.ValueIdx
import Idealize.ShloMosaic.Lib.Pipeline.Value
import Idealize.ShloMosaic.PureOps.Ideal
set_option maxRecDepth 16384

noncomputable section

namespace Cert.KernelIdeal.Hand.Value0

open Idealize.ShloMosaic Idealize.ShloMosaic.TcCoe Idealize.SL.Sem
open Idealize.ShloMosaic.Pipeline (Dat)
open Cert.KernelIdeal Cert.KernelIdeal.Gen Cert.KernelIdeal.Hand Cert.KernelIdeal.PayloadValues

open ValueIdx

section
variable (V : (c : Dev nD) → (b : Ref sig .tc) → Buf (Elt Ideal) ((c : Thread nD τ).loc b))

/-- The printed index maps over the grid: point `t` is tile `t % 8` of batch `t / 8`; the inputs' blocks move along the
    contracted axis with the tile, the output's block only with the batch. -/
theorem idx_facts0 : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0 :=
  (by decide +kernel : ∀ t : Fin grid0.N, _)

/-- Entry `(0, i, kk)` of the first input's block at point `t` is entry `(t / 8, i, 2048 · (t % 8) + kk)` of its array. -/
theorem blk0_apply (c : Dev nD) (t : Fin cfg0.N) (i : Fin 512) (kk : Fin 2048) (hb : t.val / 8 < 4) (hk : 2048 * (t.val % 8) + kk.val < 16384) :
    (iblk0 V c 0 t : Vec Ideal S1x512x2048 .f32) (ix3 0 i kk) = V c main_v0 (ix3 ⟨t.val / 8, hb⟩ i ⟨2048 * (t.val % 8) + kk.val, hk⟩) := by
  obtain ⟨e0, e1, e2, -⟩ := idx_facts0 t
  show V c main_v0 (((cfg0.win 0).blk t).view.emb (ix3 0 i kk)) = _
  refine congrArg _ ?_
  funext a; apply Fin.ext
  match a with
  | ⟨0, _⟩ => show win0_0.index t (0 : Fin 3) * 1 + 1 * 0 = t.val / 8; omega
  | ⟨1, _⟩ => show win0_0.index t (1 : Fin 3) * 512 + 1 * i.val = i.val; omega
  | ⟨2, _⟩ => show win0_0.index t (2 : Fin 3) * 2048 + 1 * kk.val = 2048 * (t.val % 8) + kk.val; omega

/-- The same for the second input. -/
theorem blk1_apply (c : Dev nD) (t : Fin cfg0.N) (j : Fin 512) (kk : Fin 2048) (hb : t.val / 8 < 4) (hk : 2048 * (t.val % 8) + kk.val < 16384) :
    (iblk0 V c 1 t : Vec Ideal S1x512x2048 .f32) (ix3 0 j kk) = V c main_v1 (ix3 ⟨t.val / 8, hb⟩ j ⟨2048 * (t.val % 8) + kk.val, hk⟩) := by
  obtain ⟨-, -, -, e0, e1, e2, -⟩ := idx_facts0 t
  show V c main_v1 (((cfg0.win 1).blk t).view.emb (ix3 0 j kk)) = _
  refine congrArg _ ?_
  funext a; apply Fin.ext
  match a with
  | ⟨0, _⟩ => show win0_1.index t (0 : Fin 3) * 1 + 1 * 0 = t.val / 8; omega
  | ⟨1, _⟩ => show win0_1.index t (1 : Fin 3) * 512 + 1 * j.val = j.val; omega
  | ⟨2, _⟩ => show win0_1.index t (2 : Fin 3) * 2048 + 1 * kk.val = 2048 * (t.val % 8) + kk.val; omega

end

/-- Term `x` of the energy `E[b, i, j]`: `q[b, i, x] · k[b, j, x]` (zero past the contracted axis' end). -/
def term (q k : S4x512x16384.Idx → EReal) (b : Fin 4) (i j : Fin 512) (x : ℕ) : EReal :=
  if h : x < 16384 then q (ix3 b i ⟨x, h⟩) * k (ix3 b j ⟨x, h⟩) else 0

section
variable (V : (c : Dev nD) → (b : Ref sig .tc) → Buf (Elt Ideal) ((c : Thread nD τ).loc b))

/-- The partial energies a tile contributes are the tile's 2048 consecutive terms. -/
theorem chunk_eq (c : Dev nD) (t : Fin cfg0.N) (i j : Fin 512) (hb : t.val / 8 < 4)
    (x0 x1 : Vec Ideal S1x512x2048 .f32) (hx0 : x0 = iblk0 V c 0 t) (hx1 : x1 = iblk0 V c 1 t) :
    ∑ kk : Fin 2048, x0 (ix3 0 i kk) * x1 (ix3 0 j kk)
      = ∑ kk : Fin 2048, term (V c main_v0) (V c main_v1) ⟨t.val / 8, hb⟩ i j (2048 * (t.val % 8) + kk.val) := by
  subst hx0 hx1
  refine Finset.sum_congr rfl fun kk _ => ?_
  have hk : 2048 * (t.val % 8) + kk.val < 16384 := by have := kk.isLt; omega
  rw [blk0_apply V c t i kk hb hk, blk1_apply V c t j kk hb hk]
  unfold term; rw [dif_pos hk]

/-- THE ACCUMULATOR after point `n` holds, at `(i, j)`, the running total of the energy `E[n / 8, i, j]` over the first
    `n % 8 + 1` tiles: by recursion on the point. -/
theorem acc_eq (c : Dev nD) : ∀ (n : ℕ) (h : n < cfg0.N) (hb : n / 8 < 4) (i j : Fin 512),
    (outsAt0 V c n h).2 (ix2 i j) = ChunkSum.running 2048 (term (V c main_v0) (V c main_v1) ⟨n / 8, hb⟩ i j) 0 (n % 8 + 1)
  | 0, h, hb, i, j => by
    rw [outsAt0_A V c ⟨0, h⟩ rfl (by dsimp only; omega)]
    dsimp only
    rw [sout_A, acc_at, zero_apply, chunk_eq V c ⟨0, h⟩ i j hb _ _ rfl rfl]
    rfl
  | n + 1, h, hb, i, j => by
    have hN : n + 1 < 32 := lt_of_lt_of_eq h (show cfg0.N = 32 from N_0)
    by_cases h0 : (n + 1) % 8 = 0
    · rw [outsAt0_A V c ⟨n + 1, h⟩ h0 (by dsimp only; omega)]
      dsimp only
      rw [sout_A, acc_at, zero_apply, chunk_eq V c ⟨n + 1, h⟩ i j hb _ _ rfl rfl]
      dsimp only
      rw [h0]
      rfl
    · have hb' : n / 8 < 4 := by omega
      have hq : (⟨n / 8, hb'⟩ : Fin 4) = ⟨(n + 1) / 8, hb⟩ := Fin.ext (by dsimp only; omega)
      have hr : (n + 1) % 8 = n % 8 + 1 := by omega
      have ih := acc_eq c n (Nat.lt_of_succ_lt h) hb' i j
      by_cases h1 : (n + 1) % 8 = 7
      · rw [outsAt0_C V c ⟨n + 1, h⟩ h0 h1]
        dsimp only
        rw [sout_C, acc_at, chunk_eq V c ⟨n + 1, h⟩ i j hb _ _ rfl rfl]
        dsimp only
        rw [show (outsAt0 V c (n + 1 - 1) _).2 (ix2 i j) = (outsAt0 V c n (Nat.lt_of_succ_lt h)).2 (ix2 i j) from rfl, ih, hq, hr]
        exact (ChunkSum.running_succ 2048 _ 0 (n % 8 + 1)).symm
      · rw [outsAt0_B V c ⟨n + 1, h⟩ h0 h1]
        dsimp only
        rw [sout_B, acc_at, chunk_eq V c ⟨n + 1, h⟩ i j hb _ _ rfl rfl]
        dsimp only
        rw [show (outsAt0 V c (n + 1 - 1) _).2 (ix2 i j) = (outsAt0 V c n (Nat.lt_of_succ_lt h)).2 (ix2 i j) from rfl, ih, hq, hr]
        exact (ChunkSum.running_succ 2048 _ 0 (n % 8 + 1)).symm

end

section
variable (V : (c : Dev nD) → (b : Ref sig .tc) → Buf (Elt Ideal) ((c : Thread nD τ).loc b))

/-- What region 0 leaves in its output array: at `(b, i, j)` the row softmax, read at `j`, of the reversed energies of row
    `i` of batch `b`, over the arrays `q`, `k` the region is entered with. -/
def G0 (c : Dev nD) : S4x512x512.Idx → EReal := fun a =>
  Cert.Spec.softmaxRow (fun j' => Cert.Spec.energy (V c main_v0) (V c main_v1) (a 0) (a 1) j') (a 2)

/-- At a last tile the accumulator holds the complete energy: eight chunks of 2048 terms are the whole sum. -/
theorem acc_full (c : Dev nD) (t : Fin cfg0.N) (h7 : t.val % 8 = 7) (hb : t.val / 8 < 4) (i j : Fin 512) :
    (outsAt0 V c t.val t.isLt).2 (ix2 i j) = Cert.Spec.energy (V c main_v0) (V c main_v1) ⟨t.val / 8, hb⟩ i j := by
  rw [acc_eq V c t.val t.isLt hb i j, h7]
  show ChunkSum.running 2048 _ 0 8 = _
  rw [ChunkSum.running_eq_sum 2048 8 16384 (by norm_num) _ 0, zero_add]
  unfold Cert.Spec.energy
  refine Finset.sum_congr rfl fun x _ => ?_
  unfold term; rw [dif_pos x.isLt]

/-- An index of a [1, 512, 512] block has first coordinate 0. -/
theorem ix3_of_unit (z : (⟨3, ![1, 512, 512]⟩ : Shape).Idx) : z = ix3 (0 : Fin 1) (z 1) (z 2) := by
  funext a
  match a with
  | ⟨0, _⟩ => exact Subsingleton.elim (α := Fin 1) _ _
  | ⟨1, _⟩ => rfl
  | ⟨2, _⟩ => rfl

set_option maxRecDepth 200000 in
/-- WHAT A FLUSHING POINT WRITES BACK is its block of `G0`. -/
theorem flushed0_eq (c : Dev nD) (t : Fin cfg0.N) (hf : (cfg0.win 2).flush t = true) :
    (dat0 V c).flushed 2 t = ((cfg0.win 2).blk t).view.read (Elt Ideal) (G0 V c) := by
  have hN : t.val < 32 := lt_of_lt_of_eq t.isLt (show cfg0.N = 32 from N_0)
  have h7 : t.val % 8 = 7 := (flush0_2 t).mp hf
  have h0 : ¬t.val % 8 = 0 := by omega
  have hb : t.val / 8 < 4 := by omega
  obtain ⟨-, -, -, -, -, -, e0, e1, e2⟩ := idx_facts0 t
  show (cfg0.win 2).cut (grid0.coords t) ((dat0 V c).after 2 t) = _
  rw [after0_2]
  have hC := outsAt0_C V c t h0 h7
  have hsm : (outsAt0 V c t.val t.isLt).1 = k0_pay3 (F := Ideal) ((outsAt0 V c t.val t.isLt).2) := by
    rw [hC]; dsimp only; rw [out_C, sout_C]
  funext y
  have hL : (cfg0.win 2).cut (grid0.coords t) (outsAt0 V c t.val t.isLt).1 y = (outsAt0 V c t.val t.isLt).1 (win0_2.xinj (grid0.coords t) y) := rfl
  have hR : ((cfg0.win 2).blk t).view.read (Elt Ideal) (G0 V c) y = G0 V c (((cfg0.win 2).blk t).view.emb y) := rfl
  rw [hL, hR]
  obtain ⟨i, j, hx, hemb⟩ : ∃ (i j : Fin 512), win0_2.xinj (grid0.coords t) y = ix3 (0 : Fin 1) i j
      ∧ ((cfg0.win 2).blk t).view.emb y = ix3 ⟨t.val / 8, hb⟩ i j :=
    ⟨(win0_2.xinj (grid0.coords t) y) 1, (win0_2.xinj (grid0.coords t) y) 2, ix3_of_unit _, by
      funext a; apply Fin.ext
      match a with
      | ⟨0, _⟩ => show win0_2.index t (0 : Fin 3) * 1 + 1 * (y 0).val = t.val / 8; have hy0 : (y 0).val < 1 := (y 0).isLt; omega
      | ⟨1, _⟩ => show win0_2.index t (1 : Fin 3) * 512 + 1 * (y 1).val = (y 1).val; omega
      | ⟨2, _⟩ => show win0_2.index t (2 : Fin 3) * 512 + 1 * (y 2).val = (y 2).val; omega⟩
  rw [hx, hemb, hsm, softmax_apply]
  show _ = Cert.Spec.softmaxRow (fun j' => Cert.Spec.energy (V c main_v0) (V c main_v1) ⟨t.val / 8, hb⟩ i j') j
  refine congrArg (fun e => Cert.Spec.softmaxRow e j) ?_
  funext j'
  exact acc_full V c t h7 hb i j'

/-- An index of the output array is in point `t`'s block iff each coordinate is in the block's range on its axis. -/
theorem mem_blk0 (t : Fin cfg0.N) (a : S4x512x512.Idx) :
    a ∈ ((cfg0.win 2).blk t).view.set ↔ ∀ d : Fin 3, win0_2.index t d * S1x512x512.size d ≤ (a d).val ∧ (a d).val < win0_2.index t d * S1x512x512.size d + S1x512x512.size d := by
  show a ∈ ((View.whole main_v3).slice (win0_2.rect t)).set ↔ _
  rw [View.set_slice_whole, Rect.mem_set_unit]
  exact Iff.rfl

/-- THE OUTPUT ARRAY after region 0: batch `b`'s block is written back once, at the batch's last tile, and the four
    batches' blocks cover the array. -/
theorem final0 (c : Dev nD) : (dat0 V c).arrAt 2 cfg0.N = G0 V c :=
  (dat0 V c).arrAt_eq_of_cover 2 (G0 V c) (flushed0_eq V c) fun a => by
    have ha0 : (a 0).val < 4 := (a 0).isLt
    have ha1 : (a 1).val < 512 := (a 1).isLt
    have ha2 : (a 2).val < 512 := (a 2).isLt
    have hlt : 8 * (a 0).val + 7 < cfg0.N := by rw [show cfg0.N = 32 from N_0]; omega
    refine ⟨⟨8 * (a 0).val + 7, hlt⟩, (flush0_2 _).mpr (by dsimp only; omega), ?_⟩
    rw [mem_blk0]
    obtain ⟨-, -, -, -, -, -, e0, e1, e2⟩ := idx_facts0 ⟨8 * (a 0).val + 7, hlt⟩
    dsimp only at e0 e1 e2
    intro d
    match d with
    | ⟨0, _⟩ => show win0_2.index ⟨8 * (a 0).val + 7, hlt⟩ (0 : Fin 3) * 1 ≤ (a 0).val ∧ (a 0).val < win0_2.index ⟨8 * (a 0).val + 7, hlt⟩ (0 : Fin 3) * 1 + 1; omega
    | ⟨1, _⟩ => show win0_2.index ⟨8 * (a 0).val + 7, hlt⟩ (1 : Fin 3) * 512 ≤ (a 1).val ∧ (a 1).val < win0_2.index ⟨8 * (a 0).val + 7, hlt⟩ (1 : Fin 3) * 512 + 512; omega
    | ⟨2, _⟩ => show win0_2.index ⟨8 * (a 0).val + 7, hlt⟩ (2 : Fin 3) * 512 ≤ (a 2).val ∧ (a 2).val < win0_2.index ⟨8 * (a 0).val + 7, hlt⟩ (2 : Fin 3) * 512 + 512; omega

end

end Cert.KernelIdeal.Hand.Value0

end
-- ==== Proof.Region1Pay.lean ====
import proofs.«172253_j53326313947743_2_alg».proof.Proof.Gen.KernelIdeal.Skeleton
import Idealize.ShloMosaic.Lib.Pipeline.Value
import Idealize.ShloMosaic.Lib.ValueIdx
import Idealize.ShloMosaic.PureOps.Ideal.Laws

/-! # The second pallas_call's stored block, read at an index

The body casts the `[1, 512, 512]` weights block and the `[1, 512, 2048]` values block to matrices, narrows the values
(the identity on the extended reals), multiplies them into a zero accumulator, and casts the `[512, 2048]` product
back to `[1, 512, 2048]`. So the stored block at `(0, i, n)` is the sum over `j` of the weights block at `(0, i, j)`
times the values block at `(0, j, n)`. -/

set_option maxRecDepth 16384

noncomputable section

open scoped BigOperators

namespace Cert.KernelIdeal.Hand.Value1

open Cert.KernelIdeal Cert.KernelIdeal.Gen
open Idealize.ShloMosaic Idealize.ShloMosaic.ValueIdx

/-! ## The product's index maps -/

/-- The product's dimension numbers: the weights' axis 1 is contracted with the values' axis 0; no batch axis. -/
abbrev Dmm := dot_S512x512_S512x2048_S512x2048_1_0_0_1_n_n

/-- Where the product at `j`, at contraction position `q`, reads its two operands. -/
theorem mm_lhs_0 (j : S512x2048.Idx) (q : Dmm.contr.Idx) : (Dmm.lhsIdx j q 0).val = (j 0).val := by
  unfold DotDims.lhsIdx
  rw [dif_neg (show ¬(0 : Fin S512x512.rank) ∈ Dmm.lhsBatch by decide), dif_pos (show (0 : Fin S512x512.rank) ∈ Dmm.lhsNonContracting by decide)]
  rfl
theorem mm_lhs_1 (j : S512x2048.Idx) (q : Dmm.contr.Idx) : (Dmm.lhsIdx j q 1).val = (q ⟨0, by decide⟩).val :=
  Dmm.lhsIdx_val_of_single rfl j q
theorem mm_rhs_0 (j : S512x2048.Idx) (q : Dmm.contr.Idx) : (Dmm.rhsIdx j q 0).val = (q ⟨0, by decide⟩).val :=
  Dmm.rhsIdx_val_of_single rfl j q
theorem mm_rhs_1 (j : S512x2048.Idx) (q : Dmm.contr.Idx) : (Dmm.rhsIdx j q 1).val = (j 1).val := by
  unfold DotDims.rhsIdx
  rw [dif_neg (show ¬(1 : Fin S512x2048.rank) ∈ Dmm.rhsBatch by decide), dif_pos (show (1 : Fin S512x2048.rank) ∈ Dmm.rhsNonContracting by decide)]
  rfl

/-- The stored block at `(0, i, n)` is the sum over `j` of the first loaded block at `(0, i, j)` times the second at
    `(0, j, n)`: the two unit axes are dropped and restored, the narrowing of the second block is the identity on the
    extended reals, and the product's accumulator is the zero splat. -/
theorem pay_apply (a : Vec Ideal S1x512x512 .bf16) (v : Vec Ideal S1x512x2048 .f32) (i : Fin 512) (n : Fin 2048) :
    k1_pay1 (F := Ideal) a v (ix3 0 i n) = ∑ j : Fin 512, a (ix3 0 i j) * v (ix3 0 j n) := by
  unfold k1_pay1
  refine (shapeCast_addUnit_apply ![512, 2048] _ shapeCasts_S512x2048_S1x512x2048 (ix3 0 i n)).trans ?_
  refine (Ideal.matmul_constant_zero_apply Dmm none _ _ _).trans ?_
  rw [← Equiv.sum_comp (contrEquiv1 Dmm 512 rfl rfl).symm]
  refine Finset.sum_congr rfl fun k _ => ?_
  have hk := contrEquiv1_symm_val Dmm 512 rfl rfl k
  have el : Dmm.lhsIdx (fun a : Fin 2 => (ix3 (0 : Fin 1) i n) a.succ) ((contrEquiv1 Dmm 512 rfl rfl).symm k) = ix2 i k := funext fun a => Fin.ext (by
    match a with
    | ⟨0, _⟩ => exact mm_lhs_0 _ _
    | ⟨1, _⟩ => exact (mm_lhs_1 _ _).trans hk)
  have er : Dmm.rhsIdx (fun a : Fin 2 => (ix3 (0 : Fin 1) i n) a.succ) ((contrEquiv1 Dmm 512 rfl rfl).symm k) = ix2 k n := funext fun a => Fin.ext (by
    match a with
    | ⟨0, _⟩ => exact (mm_rhs_0 _ _).trans hk
    | ⟨1, _⟩ => exact mm_rhs_1 _ _)
  rw [el, er]
  have ea : shapeCast S512x512 a shapeCasts_S1x512x512_S512x512 (ix2 i k) = a (ix3 0 i k) :=
    (shapeCast_dropUnit_apply ![512, 512] a shapeCasts_S1x512x512_S512x512 (ix2 i k)).trans
      (congrArg a (funext fun d => by match d with | ⟨0, _⟩ => rfl | ⟨1, _⟩ => rfl | ⟨2, _⟩ => rfl))
  have ev : shapeCast S512x2048 v shapeCasts_S1x512x2048_S512x2048 (ix2 k n) = v (ix3 0 k n) :=
    (shapeCast_dropUnit_apply ![512, 2048] v shapeCasts_S1x512x2048_S512x2048 (ix2 k n)).trans
      (congrArg v (funext fun d => by match d with | ⟨0, _⟩ => rfl | ⟨1, _⟩ => rfl | ⟨2, _⟩ => rfl))
  show shapeCast S512x512 a shapeCasts_S1x512x512_S512x512 (ix2 i k) * shapeCast S512x2048 v shapeCasts_S1x512x2048_S512x2048 (ix2 k n) = _
  rw [ea, ev]

end Cert.KernelIdeal.Hand.Value1

end
-- ==== Proof.Region1Value.lean ====
import proofs.«172253_j53326313947743_2_alg».proof.Proof.Region1
import proofs.«172253_j53326313947743_2_alg».proof.Proof.Region1Pay
import Idealize.ShloMosaic.Lib.Pipeline.Value
import Idealize.ShloMosaic.Lib.ValueIdx

/-! # The second pallas_call's output array, index by index

Grid point `t` of the (4, 8) grid has coordinates `(t / 8, t % 8)`. There the first input window holds batch `t / 8`
of the `[4, 512, 512]` weights, the second input window columns `2048 · (t % 8) … 2048 · (t % 8) + 2047` of batch
`t / 8` of the `[4, 512, 16384]` values, and the body stores their product into the output window, which is written
back to the same batch and columns of the output array. Every point writes back and the 32 blocks tile the output
array, so the array ends, at `(b, i, n)`, at the sum over `j` of the weights at `(b, i, j)` times the values at
`(b, j, n)`. -/

set_option maxRecDepth 16384

noncomputable section

open scoped BigOperators

namespace Cert.KernelIdeal.Hand.Value1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl

/-- Column `n` of the `q`-th block of 2048 columns is a column of the array. -/
theorem col_lt (q : Fin 8) (n : Fin 2048) : 2048 * q.val + n.val < 16384 := by omega

/-! ## The function the output array ends at -/

/-- The weighted sum at `(b, i, n)`: over `j`, the weights at `(b, i, j)` times the values at `(b, j, n)`. -/
def attn (a : S4x512x512.Idx → EReal) (v : S4x512x16384.Idx → EReal) (b : Fin 4) (i : Fin 512) (n : Fin 16384) : EReal :=
  ∑ j : Fin 512, a (ix3 b i j) * v (ix3 b j n)

/-- The output array as one function of its index. -/
def G1 (c : Dev nD) : S4x512x16384.Idx → EReal := fun x =>
  attn (V c main_v3) (V c main_v2) (x 0) (x 1) (x 2)

/-! ## The index maps over the grid -/

/-- The printed index maps in closed form, decided over the 32 points: the weights' window follows the first grid
    coordinate alone, the values' and the output's windows follow both. -/
theorem idx_facts : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = t.val % 8
    ∧ win1_2.index t (0 : Fin 3) = t.val / 8 ∧ win1_2.index t (1 : Fin 3) = 0 ∧ win1_2.index t (2 : Fin 3) = t.val % 8 :=
  (by decide +kernel : ∀ t : Fin grid1.N, _)

/-! ## The body's product, read at an index of the block -/

/-- If the two loaded blocks are batch `b` of the weights and columns `2048 · q …` of batch `b` of the values, the
    stored block at `(0, i, n)` is the weighted sum at `(b, i, 2048 · q + n)`. -/
theorem pay_at (x0 : Vec Ideal S1x512x512 .bf16) (x1 : Vec Ideal S1x512x2048 .f32)
    (a : S4x512x512.Idx → EReal) (v : S4x512x16384.Idx → EReal) (b : Fin 4) (q : Fin 8)
    (h0 : ∀ (i j : Fin 512), x0 (ix3 0 i j) = a (ix3 b i j))
    (h1 : ∀ (j : Fin 512) (n : Fin 2048), x1 (ix3 0 j n) = v (ix3 b j (⟨2048 * q.val + n.val, col_lt q n⟩ : Fin 16384)))
    (i : Fin 512) (n : Fin 2048) :
    k1_pay1 (F := Ideal) x0 x1 (ix3 0 i n) = attn a v b i ⟨2048 * q.val + n.val, col_lt q n⟩ := by
  refine (pay_apply x0 x1 i n).trans ?_
  unfold attn
  exact Finset.sum_congr rfl fun j _ => by rw [h0 i j, h1 j n]

/-- The same at any index `y` of the block and any index `k` of the array that lies at `y` inside block `(b, 0, q)`. -/
theorem pay_at_idx (x0 : Vec Ideal S1x512x512 .bf16) (x1 : Vec Ideal S1x512x2048 .f32)
    (a : S4x512x512.Idx → EReal) (v : S4x512x16384.Idx → EReal) (b : Fin 4) (q : Fin 8)
    (h0 : ∀ (i j : Fin 512), x0 (ix3 0 i j) = a (ix3 b i j))
    (h1 : ∀ (j : Fin 512) (n : Fin 2048), x1 (ix3 0 j n) = v (ix3 b j (⟨2048 * q.val + n.val, col_lt q n⟩ : Fin 16384)))
    (y : S1x512x2048.Idx) (k : S4x512x16384.Idx)
    (hk0 : (k 0).val = b.val) (hk1 : (k 1).val = (y 1).val) (hk2 : (k 2).val = 2048 * q.val + (y 2).val) :
    k1_pay1 (F := Ideal) x0 x1 y = attn a v (k 0) (k 1) (k 2) := by
  obtain ⟨u, i, n, rfl⟩ : ∃ (u : Fin 1) (i : Fin 512) (n : Fin 2048), y = ix3 u i n := ⟨y 0, y 1, y 2, eq_ix3 y⟩
  obtain ⟨b', i', n', rfl⟩ : ∃ (b' : Fin 4) (i' : Fin 512) (n' : Fin 16384), k = ix3 b' i' n' := ⟨k 0, k 1, k 2, eq_ix3 k⟩
  obtain rfl : u = 0 := Subsingleton.elim _ _
  obtain rfl : b' = b := Fin.ext hk0
  obtain rfl : i' = i := Fin.ext hk1
  obtain rfl : n' = ⟨2048 * q.val + n.val, col_lt q n⟩ := Fin.ext hk2
  exact pay_at x0 x1 a v b' q h0 h1 i' n

/-! ## The input blocks, read where the output's block says -/

/-- The weights' block at point `t`, read at `(0, i, j)`, is the weights' array at `(t / 8, i, j)`. -/
theorem blk0_apply (c : Dev nD) (t : Fin cfg1.N) (b : Fin 4) (hb : b.val = t.val / 8) (i j : Fin 512) :
    (iblk1 V c 0 t : Vec Ideal S1x512x512 .bf16) (ix3 0 i j) = (V c main_v3 : S4x512x512.Idx → EReal) (ix3 b i j) := by
  obtain ⟨e0, e1, e2, -⟩ := idx_facts t
  unfold iblk1
  rw [View.read_apply]
  show (V c main_v3 : S4x512x512.Idx → EReal) _ = V c main_v3 _
  refine congrArg (V c main_v3 : S4x512x512.Idx → EReal) (funext fun a => Fin.ext ?_)
  match a with
  | ⟨0, _⟩ => show win1_0.index t (0 : Fin 3) * 1 + 1 * 0 = b.val; rw [e0, hb]; omega
  | ⟨1, _⟩ => show win1_0.index t (1 : Fin 3) * 512 + 1 * i.val = i.val; rw [e1]; omega
  | ⟨2, _⟩ => show win1_0.index t (2 : Fin 3) * 512 + 1 * j.val = j.val; rw [e2]; omega

/-- The values' block at point `t`, read at `(0, j, n)`, is the values' array at `(t / 8, j, 2048 · (t % 8) + n)`. -/
theorem blk1_apply (c : Dev nD) (t : Fin cfg1.N) (b : Fin 4) (q : Fin 8) (hb : b.val = t.val / 8) (hq : q.val = t.val % 8)
    (j : Fin 512) (n : Fin 2048) :
    (iblk1 V c 1 t : Vec Ideal S1x512x2048 .f32) (ix3 0 j n)
      = (V c main_v2 : S4x512x16384.Idx → EReal) (ix3 b j (⟨2048 * q.val + n.val, col_lt q n⟩ : Fin 16384)) := by
  obtain ⟨-, -, -, e3, e4, e5, -⟩ := idx_facts t
  unfold iblk1
  rw [View.read_apply]
  show (V c main_v2 : S4x512x16384.Idx → EReal) _ = V c main_v2 _
  refine congrArg (V c main_v2 : S4x512x16384.Idx → EReal) (funext fun a => Fin.ext ?_)
  match a with
  | ⟨0, _⟩ => show win1_1.index t (0 : Fin 3) * 1 + 1 * 0 = b.val; rw [e3, hb]; omega
  | ⟨1, _⟩ => show win1_1.index t (1 : Fin 3) * 512 + 1 * j.val = j.val; rw [e4]; omega
  | ⟨2, _⟩ => show win1_1.index t (2 : Fin 3) * 2048 + 1 * n.val = 2048 * q.val + n.val; rw [e5, hq]; omega

/-! ## What a point writes back -/

/-- What point `t` writes back is block `t` of `G1`. -/
theorem flushed_eq (c : Dev nD) (t : Fin cfg1.N) :
    (dat1 V c).flushed 2 t = ((cfg1.win 2).blk t).view.read (Elt Ideal) (G1 V c) := by
  have hN : cfg1.N = 32 := N_1
  have ht : t.val < 32 := by have := t.isLt; omega
  obtain ⟨-, -, -, -, -, -, e6, e7, e8⟩ := idx_facts t
  show (cfg1.win 2).cut (grid1.coords t) ((dat1 V c).after 2 t) = _
  rw [after1_2]
  unfold out1_2
  rw [View.canon_unit_zero hz3]
  simp only [View.ld_unit_zero (S := S1x512x512) hz3, View.ld_unit_zero (S := S1x512x2048) hz3]
  funext y
  have hy0 : (y 0).val < 1 := (y 0).isLt
  have hy2 : (y 2).val < 2048 := (y 2).isLt
  show k1_pay1 (F := Ideal) (iblk1 V c 0 t) (iblk1 V c 1 t) y = G1 V c (((cfg1.win 2).blk t).view.emb y)
  exact pay_at_idx (iblk1 V c 0 t) (iblk1 V c 1 t) (V c main_v3) (V c main_v2) ⟨t.val / 8, by omega⟩ ⟨t.val % 8, by omega⟩
    (fun i j => blk0_apply V c t ⟨t.val / 8, by omega⟩ rfl i j)
    (fun j n => blk1_apply V c t ⟨t.val / 8, by omega⟩ ⟨t.val % 8, by omega⟩ rfl rfl j n)
    y (((cfg1.win 2).blk t).view.emb y)
    (by show win1_2.index t (0 : Fin 3) * 1 + 1 * (y 0).val = t.val / 8; rw [e6]; omega)
    (by show win1_2.index t (1 : Fin 3) * 512 + 1 * (y 1).val = (y 1).val; rw [e7]; omega)
    (by show win1_2.index t (2 : Fin 3) * 2048 + 1 * (y 2).val = 2048 * (t.val % 8) + (y 2).val; rw [e8]; omega)

/-! ## The blocks tile the output array -/

/-- An index of the output array is in point `t`'s block iff each coordinate is in the block's range on its axis. -/
theorem mem_blk (t : Fin cfg1.N) (i : S4x512x16384.Idx) :
    i ∈ ((cfg1.win 2).blk t).view.set ↔ ∀ a : Fin 3, win1_2.index t a * S1x512x2048.size a ≤ (i a).val ∧ (i a).val < win1_2.index t a * S1x512x2048.size a + S1x512x2048.size a := by
  show i ∈ ((View.whole main_v4).slice (win1_2.rect t)).set ↔ _
  rw [View.set_slice_whole, Rect.mem_set_unit]
  exact Iff.rfl

/-- Every index `(b, i, n)` of the output array is in the block of the point `8 · b + n / 2048`, which writes back. -/
theorem cover (i : S4x512x16384.Idx) :
    ∃ t : Fin cfg1.N, (cfg1.win 2).flush t = true ∧ i ∈ ((cfg1.win 2).blk t).view.set := by
  have hN : cfg1.N = 32 := N_1
  have hi0 : (i 0).val < 4 := (i 0).isLt
  have hi1 : (i 1).val < 512 := (i 1).isLt
  have hi2 : (i 2).val < 16384 := (i 2).isLt
  obtain ⟨t, ht⟩ : ∃ t : Fin cfg1.N, t.val = 8 * (i 0).val + (i 2).val / 2048 := ⟨⟨8 * (i 0).val + (i 2).val / 2048, by omega⟩, rfl⟩
  obtain ⟨-, -, -, -, -, -, e6, e7, e8⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; rw [e6]; omega
  | ⟨1, _⟩ => show win1_2.index t (1 : Fin 3) * 512 ≤ (i 1).val ∧ (i 1).val < win1_2.index t (1 : Fin 3) * 512 + 512; rw [e7]; omega
  | ⟨2, _⟩ => show win1_2.index t (2 : Fin 3) * 2048 ≤ (i 2).val ∧ (i 2).val < win1_2.index t (2 : Fin 3) * 2048 + 2048; rw [e8]; omega

/-! ## The output array after the region -/

/-- The output array after the last point is `G1`. -/
theorem final1_fun (c : Dev nD) : (dat1 V c).arrAt 2 cfg1.N = G1 V c :=
  (dat1 V c).arrAt_eq_of_cover 2 (G1 V c) (fun t _ => flushed_eq V c t) (cover)

/-- The weights' array as the region finds it, as a function to the extended reals. -/
abbrev wts (c : Dev nD) : S4x512x512.Idx → EReal := V c main_v3
/-- The values' array as the region finds it, as a function to the extended reals. -/
abbrev vals (c : Dev nD) : S4x512x16384.Idx → EReal := V c main_v2

/-- The output array after the last point, at `(b, i, n)`: the sum over `j` of the weights at `(b, i, j)` times the
    values at `(b, j, n)`, both as the region found them. -/
theorem final1 (c : Dev nD) (b : Fin 4) (i : Fin 512) (n : Fin 16384) :
    ((dat1 V c).arrAt 2 cfg1.N : S4x512x16384.Idx → EReal) (ix3 b i n)
      = ∑ j : Fin 512, wts V c (ix3 b i j) * vals V c (ix3 b j n) :=
  (congrFun (final1_fun V c) (ix3 b i n)).trans rfl

end Cert.KernelIdeal.Hand.Value1

end
-- ==== Proof.KernelValue.lean ====
import proofs.«172253_j53326313947743_2_alg».proof.Proof.Run
import proofs.«172253_j53326313947743_2_alg».proof.Proof.Region0Value
import proofs.«172253_j53326313947743_2_alg».proof.Proof.Region1Value
import proofs.«172253_j53326313947743_2_alg».proof.Proof.Spec

/-! # What the kernel's program returns, on the extended reals

The first pallas_call leaves in its output array the row softmax of the reversed energies of the first two
arguments (each reshaped to `[4, 512, 16384]`); the second leaves in its output array, at `(b, i, n)`, the sum over
`j` of those weights at `(b, i, j)` times the third argument (reshaped) at `(b, j, n)`. That sum is the specification's
output at `(b, i, n)`; the program returns it reshaped to `[4, 512, 128, 128]`. -/

set_option maxRecDepth 16384

noncomputable section

open scoped BigOperators

namespace Cert.KernelIdeal.Hand.Value

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The two output arrays as functions of the arrays the calls are entered with -/

section
variable (V : (c : Dev nD) → (b : Ref sig .tc) → Buf (Elt Ideal) ((c : Thread nD τ).loc b))

/-- The first call's output array over named input arrays. -/
theorem G0_of (c : Dev nD) (q k : S4x512x16384.Idx → EReal) (hq : V c main_v0 = q) (hk : V c main_v1 = k) :
    Value0.G0 V c = fun a => Cert.Spec.softmaxRow (fun j' => Cert.Spec.energy q k (a 0) (a 1) j') (a 2) := by
  subst hq hk; rfl

/-- The second call's output array over named input arrays. -/
theorem G1_of (c : Dev nD) (a : S4x512x512.Idx → EReal) (v : S4x512x16384.Idx → EReal) (ha : V c main_v3 = a) (hv : V c main_v2 = v) :
    Value1.G1 V c = fun x => Value1.attn a v (x 0) (x 1) (x 2) := by
  subst ha hv; rfl

end

/-- The weighted sum of the softmax weights against the values is the specification's output. -/
theorem attn_softmax (q k v : S4x512x16384.Idx → EReal) :
    (fun x : S4x512x16384.Idx => Value1.attn (fun a : S4x512x512.Idx => Cert.Spec.softmaxRow (fun j' => Cert.Spec.energy q k (a 0) (a 1) j') (a 2)) v (x 0) (x 1) (x 2))
      = Cert.Spec.out q k v := by
  funext x; rfl

variable (m : (ℓ : Loc nD τ sig) → Buf (Elt Ideal) ℓ) (ρ : Dev nD → PrngReg)

/-- THE VALUE: the returned buffer holds the specification's output of the three arguments, each reshaped to
    `[4, 512, 16384]`, reshaped back to `[4, 512, 128, 128]`. -/
theorem kernel_value (c : Dev nD) :
    W4 m ρ c (Proc.devRef .tc main_v5)
      = shapeCast S4x512x128x128
          (Cert.Spec.out
            (shapeCast S4x512x16384 (m ((c : Thread nD τ).loc main_arg0)) shapeCasts_S4x512x128x128_S4x512x16384)
            (shapeCast S4x512x16384 (m ((c : Thread nD τ).loc main_arg1)) shapeCasts_S4x512x128x128_S4x512x16384)
            (shapeCast S4x512x16384 (m ((c : Thread nD τ).loc main_arg2)) shapeCasts_S4x512x128x128_S4x512x16384))
          shapeCasts_S4x512x16384_S4x512x128x128 := by
  have h3 : V2 m ρ c main_v3 = _ :=
    ((W2_main_v3 m ρ c).trans (Value0.final0 (V1 m ρ) c)).trans
      (G0_of (V1 m ρ) c _ _ (W1_main_v0 m ρ c) (W1_main_v1 m ρ c))
  have h2 : V2 m ρ c main_v2 = _ := (W2_main_v2 m ρ c).trans (W1_main_v2 m ρ c)
  have h4 : W3 m ρ c (Proc.devRef .tc main_v4) = _ :=
    ((W3_main_v4 m ρ c).trans (Value1.final1_fun (V2 m ρ) c)).trans
      ((G1_of (V2 m ρ) c _ _ h3 h2).trans (attn_softmax _ _ _))
  rw [W4_main_v5, h4]

end Cert.KernelIdeal.Hand.Value

end
-- ==== Proof.RefFrame.lean ====
/-
  The reference program's frame: its run, read back operation by operation, ends with every argument array as launched.
-/
import proofs.«172253_j53326313947743_2_alg».proof.Defs
import proofs.«172253_j53326313947743_2_alg».proof.Proof.Gen.ReferenceIdeal
import proofs.«172253_j53326313947743_2_alg».proof.Proof.Gen.Pre_finite_inputs
import proofs.«172253_j53326313947743_2_alg».proof.Proof.Gen.ReferenceIdeal.Run
import proofs.«172253_j53326313947743_2_alg».proof.Proof.Gen.ReferenceIdeal.Read

noncomputable section

namespace Cert.Proof.RefFrame

open Idealize.ShloMosaic Idealize.SL.Sem

/-- The reference runs, and its three arguments end as launched: the last three conjuncts of its run. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefValue.lean ====
import proofs.«172253_j53326313947743_2_alg».proof.Proof.Gen.ReferenceIdeal.Read
import proofs.«172253_j53326313947743_2_alg».proof.Proof.Spec

/-! # The reference program's result, index by index

The reference reshapes its three arguments to `q, k, v : [4, 512, 16384]`, takes the energies `q · kᵀ` batch by batch,
turns every row of energies into weights by the softmax of the reversed row — the row's maximum from -∞, the gaps
below it, their maximum taken against -∞ once more, the exponentials of the gaps less that maximum, divided by
their sum (added onto a zero) — and multiplies the weights into `v`. Read at `(b, i, n)` this is the specification's
`out q k v`. Each stage is read at explicit coordinates in terms of row `(b, i)` of the energies. -/

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## A row's maximum on the host -/

/-- Position `k` put back into the row index `(b, i)`. -/
theorem lift_row3 (h : S4x512x512.Reduces [2] S4x512) (b : Fin 4) (i : Fin 512) (k : Fin (S4x512x512.size 2)) :
    h.lift (ix2 b i) k = ix3 b i (⟨k.val, k.isLt⟩ : Fin 512) := by
  funext c; apply Fin.ext
  fin_cases c <;> rfl

/-- The host's reduce with a maximum body from -∞ over the last axis, read at row `(b, i)`, is the row's maximum. -/
theorem hostRowMax_apply (y : (⟨S4x512x512, .f32⟩ : BufTy).Contents (Elt Ideal)) (b : Fin 4) (i : Fin 512) :
    Host.reduce FloatOps.maximumf y (constant (F := Ideal) S_ .f32 0xFF800000#32) reducesTo_S4x512x512_S4x512_d2 h_S_ (ix2 b i)
      = Cert.Spec.rowMax (fun j => y (ix3 b i j)) := by
  have h : S4x512x512.Reduces [2] S4x512 := by decide
  refine (Host.reduce_eq_fold_single (FloatOps.maximumf (F := Ideal) (φ := .f32)) y _ reducesTo_S4x512x512_S4x512_d2 h h_S_ (ix2 b i)).trans ?_
  unfold Cert.Spec.rowMax
  show (Finset.univ : Finset (Fin 512)).fold max (Ideal.ofBits .f32 0xFF800000#32) (fun k => y (h.lift (ix2 b i) k)) = _
  rw [Cert.Spec.ofBits_negInf_f32]
  exact congrArg (fun f : Fin 512 → EReal => (Finset.univ : Finset (Fin 512)).fold max ⊥ f)
    (funext fun k => congrArg y (lift_row3 h b i k))

/-! ## Row (b, i) of the energies, and the stages read along it -/

variable (x0 x1 x2 : (⟨S4x512x128x128, .f32⟩ : BufTy).Contents (Elt Ideal))

/-- Row `(b, i)` of the energies. -/
def erow (b : Fin 4) (i : Fin 512) : Fin 512 → EReal := fun j => val_main_v3 (F := Ideal) x0 x1 (ix3 b i j)

/-- The rows' maxima. -/
theorem v4_at (b : Fin 4) (i : Fin 512) :
    val_main_v4 (F := Ideal) x0 x1 (ix2 b i) = Cert.Spec.rowMax (erow x0 x1 b i) := by
  unfold val_main_v4 val_main_cst
  exact hostRowMax_apply (val_main_v3 (F := Ideal) x0 x1) b i

/-- The gaps below the row's maximum. -/
theorem v7_at (b : Fin 4) (i j : Fin 512) :
    val_main_v7 (F := Ideal) x0 x1 (ix3 b i j) = Cert.Spec.gap (erow x0 x1 b i) j := by
  have e : idx_main_v5 (idx_main_v6 (ix3 b i j)) = ix2 b i :=
    funext fun a => Fin.ext (by match a with | ⟨0, _⟩ => rfl | ⟨1, _⟩ => rfl)
  rw [val_main_v7_apply, val_main_v6_apply, val_main_v5_apply, e, v4_at]
  rfl

/-- The largest gap. -/
theorem v8_at (b : Fin 4) (i : Fin 512) :
    val_main_v8 (F := Ideal) x0 x1 (ix2 b i) = Cert.Spec.rowMax (Cert.Spec.gap (erow x0 x1 b i)) := by
  unfold val_main_v8 val_main_cst_0
  refine (hostRowMax_apply (val_main_v7 (F := Ideal) x0 x1) b i).trans ?_
  exact congrArg Cert.Spec.rowMax (funext fun j => v7_at x0 x1 b i j)

/-- The largest gap, against -∞ once more. -/
theorem v10_at (b : Fin 4) (i : Fin 512) :
    val_main_v10 (F := Ideal) x0 x1 (ix2 b i) = Cert.Spec.shift (erow x0 x1 b i) := by
  rw [val_main_v10_apply, val_main_v9_apply, v8_at]
  show max (Ideal.ofBits .f32 0xFF800000#32) _ = _
  rw [Cert.Spec.ofBits_negInf_f32]
  rfl

/-- The unnormalized weights. -/
theorem v14_at (b : Fin 4) (i j : Fin 512) :
    val_main_v14 (F := Ideal) x0 x1 (ix3 b i j) = Cert.Spec.weight (erow x0 x1 b i) j := by
  have e : idx_main_v11 (idx_main_v12 (ix3 b i j)) = ix2 b i :=
    funext fun a => Fin.ext (by match a with | ⟨0, _⟩ => rfl | ⟨1, _⟩ => rfl)
  rw [val_main_v14_apply, val_main_v13_apply, val_main_v12_apply, val_main_v11_apply, e, v10_at, v7_at]
  unfold Cert.Spec.weight
  rw [Ideal.hostUnary_exp_def, Ideal.subf_def]

/-- The weights' sum along the row: the sum onto the zero the reduction starts from. -/
theorem v15_at (b : Fin 4) (i : Fin 512) :
    val_main_v15 (F := Ideal) x0 x1 (ix2 b i) = ∑ j' : Fin 512, Cert.Spec.weight (erow x0 x1 b i) j' := by
  rw [val_main_v15_apply]
  show Ideal.ofBits .f32 0x00000000#32 + _ = _
  rw [Ideal.ofBits_zero_f32, zero_add]
  refine Finset.sum_congr rfl fun k _ => ?_
  have e : idx_main_v15 (ix2 b i) k = ix3 b i k :=
    funext fun a => Fin.ext (by match a with | ⟨0, _⟩ => rfl | ⟨1, _⟩ => rfl | ⟨2, _⟩ => rfl)
  rw [e, v14_at]

/-- The softmax of the reversed row. -/
theorem v18_at (b : Fin 4) (i j : Fin 512) :
    val_main_v18 (F := Ideal) x0 x1 (ix3 b i j) = Cert.Spec.softmaxRow (erow x0 x1 b i) j := by
  have e : idx_main_v16 (idx_main_v17 (ix3 b i j)) = ix2 b i :=
    funext fun a => Fin.ext (by match a with | ⟨0, _⟩ => rfl | ⟨1, _⟩ => rfl)
  rw [val_main_v18_apply, val_main_v17_apply, val_main_v16_apply, e, v15_at, v14_at]
  rfl

/-- Row `(b, i)` of the energies is the specification's: the inner products of `q`'s row `(b, i)` with `k`'s rows. -/
theorem erow_eq (b : Fin 4) (i : Fin 512) :
    erow x0 x1 b i = fun j => Cert.Spec.energy (val_main_v0 (F := Ideal) x0) (val_main_v1 (F := Ideal) x1) b i j := by
  funext j
  unfold erow
  rw [val_main_v3_apply]
  unfold Cert.Spec.energy
  refine Finset.sum_congr rfl fun n _ => ?_
  have el : lidx_main_v3 (ix3 b i j) n = ix3 b i n :=
    funext fun a => Fin.ext (by match a with | ⟨0, _⟩ => rfl | ⟨1, _⟩ => rfl | ⟨2, _⟩ => rfl)
  have er : ridx_main_v3 (ix3 b i j) n = ix3 b j n :=
    funext fun a => Fin.ext (by match a with | ⟨0, _⟩ => rfl | ⟨1, _⟩ => rfl | ⟨2, _⟩ => rfl)
  rw [el, er]

/-! ## The result -/

/-- The reference's result before its last reshape is the specification's output of the three reshaped arguments. -/
theorem ref_value :
    val_main_v19 (F := Ideal) x0 x1 x2
      = Cert.Spec.out (val_main_v0 (F := Ideal) x0) (val_main_v1 (F := Ideal) x1) (val_main_v2 (F := Ideal) x2) := by
  funext x
  obtain ⟨b, i, n, rfl⟩ : ∃ (b : Fin 4) (i : Fin 512) (n : Fin 16384), x = ix3 b i n := ⟨x 0, x 1, x 2, eq_ix3 x⟩
  rw [val_main_v19_apply, Cert.Spec.out_apply, ← erow_eq]
  refine Finset.sum_congr rfl fun k _ => ?_
  have el : lidx_main_v19 (ix3 b i n) k = ix3 b i k :=
    funext fun a => Fin.ext (by match a with | ⟨0, _⟩ => rfl | ⟨1, _⟩ => rfl | ⟨2, _⟩ => rfl)
  have er : ridx_main_v19 (ix3 b i n) k = ix3 b k n :=
    funext fun a => Fin.ext (by match a with | ⟨0, _⟩ => rfl | ⟨1, _⟩ => rfl | ⟨2, _⟩ => rfl)
  rw [el, er, v18_at]

end Cert.ReferenceIdeal.RefValue

end
-- ==== Proof.Claims.lean ====
import proofs.«172253_j53326313947743_2_alg».proof.Defs
import proofs.«172253_j53326313947743_2_alg».proof.Proof.Gen.Kernel
import proofs.«172253_j53326313947743_2_alg».proof.Proof.Gen.KernelIdeal
import proofs.«172253_j53326313947743_2_alg».proof.Proof.Gen.ReferenceIdeal
import proofs.«172253_j53326313947743_2_alg».proof.Proof.Gen.Pre_finite_inputs
import proofs.«172253_j53326313947743_2_alg».proof.Proof.KRun
import proofs.«172253_j53326313947743_2_alg».proof.Proof.KernelValue
import proofs.«172253_j53326313947743_2_alg».proof.Proof.RefFrame
import proofs.«172253_j53326313947743_2_alg».proof.Proof.RefValue

/-! # The five claims

Both programs, read on the extended reals, return the same function of their three arguments: the specification's
output of the arguments reshaped to `[4, 512, 16384]`, reshaped back. The kernel's program does so by its two calls
(the value of its run), the reference by its operations read one at a time. The frames are the runs with the value
forgotten. -/

noncomputable section

namespace Cert.Proof.Claims

open Idealize.ShloMosaic Idealize.ShloMosaic.TcCoe Idealize.SL.Sem

/-- What the reference returns: the specification's output of the reshaped arguments, reshaped back. -/
theorem ref_result (x0 x1 x2 : (⟨Cert.ReferenceIdeal.S4x512x128x128, .f32⟩ : BufTy).Contents (Elt Ideal)) :
    Cert.ReferenceIdeal.Read.val_main_v20 (F := Ideal) x0 x1 x2
      = shapeCast Cert.ReferenceIdeal.S4x512x128x128
          (Cert.Spec.out
            (shapeCast Cert.ReferenceIdeal.S4x512x16384 x0 Cert.ReferenceIdeal.Gen.shapeCasts_S4x512x128x128_S4x512x16384)
            (shapeCast Cert.ReferenceIdeal.S4x512x16384 x1 Cert.ReferenceIdeal.Gen.shapeCasts_S4x512x128x128_S4x512x16384)
            (shapeCast Cert.ReferenceIdeal.S4x512x16384 x2 Cert.ReferenceIdeal.Gen.shapeCasts_S4x512x128x128_S4x512x16384))
          Cert.ReferenceIdeal.Gen.shapeCasts_S4x512x16384_S4x512x128x128 := by
  unfold Cert.ReferenceIdeal.Read.val_main_v20
  rw [Cert.ReferenceIdeal.RefValue.ref_value]
  rfl

/-- The word-level program runs and its arguments end as launched. -/
theorem frame_k : Cert.frame_Kernel := fun m ρ _ => Cert.Kernel.Hand.frame (F := Bits) m ρ
/-- The same program read on the extended reals runs and its arguments end as launched. -/
theorem frame_ki : Cert.frame_KernelIdeal := fun m ρ _ => Cert.KernelIdeal.Hand.frame (F := Ideal) m ρ

/-- What the kernel's program returns on core `c`. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v5) :=
  shapeCast Cert.KernelIdeal.S4x512x128x128
    (Cert.Spec.out
      (shapeCast Cert.KernelIdeal.S4x512x16384 (m ((c.tc : Thread Cert.KernelIdeal.nD Cert.KernelIdeal.τ).loc Cert.KernelIdeal.main_arg0)) Cert.KernelIdeal.Gen.shapeCasts_S4x512x128x128_S4x512x16384)
      (shapeCast Cert.KernelIdeal.S4x512x16384 (m ((c.tc : Thread Cert.KernelIdeal.nD Cert.KernelIdeal.τ).loc Cert.KernelIdeal.main_arg1)) Cert.KernelIdeal.Gen.shapeCasts_S4x512x128x128_S4x512x16384)
      (shapeCast Cert.KernelIdeal.S4x512x16384 (m ((c.tc : Thread Cert.KernelIdeal.nD Cert.KernelIdeal.τ).loc Cert.KernelIdeal.main_arg2)) Cert.KernelIdeal.Gen.shapeCasts_S4x512x128x128_S4x512x16384))
    Cert.KernelIdeal.Gen.shapeCasts_S4x512x16384_S4x512x128x128

/-- On the extended reals, from memories that agree on the arguments, both programs run and return the same array:
    the kernel's by the value of its run, the reference's by its operations read one at a time. -/
theorem algebraic : Cert.algebraic_KernelIdeal_ReferenceIdeal := by
  intro m ρ m' ρ' _ hagree
  refine ⟨result m, ?_, ?_⟩
  · exact (θ_run Cert.KernelIdeal.defs _ _).mono (fun r h c =>
      ⟨(h c _ (Cert.KernelIdeal.Hand.mem_uc Cert.KernelIdeal.main_v5 (by decide))).trans (Cert.KernelIdeal.Hand.Value.kernel_value m ρ c),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, ref_result, (hagree c).1, (hagree c).2.1, (hagree c).2.2]
    rfl

end Cert.Proof.Claims

end
-- ==== Proof.lean ====
/-
  Attention over three `[4, 512, 128, 128]` arrays read as `[4, 512, 16384]`: the energy of rows `i` and `j` of a batch is
  the inner product of the first array's row `i` and the second's row `j`; each row of energies is turned into weights
  by a softmax of the REVERSED energies (the row's maximum minus each energy, shifted by the largest such gap,
  exponentiated and divided by the row's sum); the result at `(b, i, n)` is the sum over `j` of the weight at
  `(b, i, j)` times the third array at `(b, j, n)`, and is returned as `[4, 512, 128, 128]`.

  The kernel's program does this in two calls. The first walks, for each batch, eight tiles of 2048 columns of the
  contracted axis, adding each tile's partial energies into an accumulator it carries from tile to tile, and at the last
  tile stores the row softmax of the accumulated energies into its output block: the accumulated sum over the eight tiles
  is the sum over all 16384 columns, so the output array holds the weights. The second call multiplies, for each batch
  and each tile of 2048 columns, the batch's weights by that tile of the third array and writes the product back; the 32
  blocks tile the output array, which therefore holds the weighted sums. The reference computes the same energies by one
  contraction, the same softmax by reductions and broadcasts along the last axis, and the same weighted sums by a second
  contraction. On the extended reals both are one function of the three arguments, the specification's output; the
  claim that the two programs agree is that equation, and the frames are the two runs with the value forgotten.
-/
import proofs.«172253_j53326313947743_2_alg».proof.Defs
import proofs.«172253_j53326313947743_2_alg».proof.Proof.Gen.Kernel
import proofs.«172253_j53326313947743_2_alg».proof.Proof.Gen.KernelIdeal
import proofs.«172253_j53326313947743_2_alg».proof.Proof.Gen.ReferenceIdeal
import proofs.«172253_j53326313947743_2_alg».proof.Proof.Gen.Pre_finite_inputs
import proofs.«172253_j53326313947743_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, RefFrame.frame_ri, trivial, Claims.algebraic⟩

end Cert.Proof

end
